-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x128 : Shape := ⟨3, ![8, 8192, 128]⟩
abbrev S2x65536 : Shape := ⟨2, ![2, 65536]⟩
abbrev S128x128 : Shape := ⟨2, ![128, 128]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x8192x128 .f32) (main_arg1 : IVec S2x65536 32) (main_arg2 : FVec F S128x128 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x8192x128 : Shape := ⟨3, ![8, 8192, 128]⟩
abbrev S2x65536 : Shape := ⟨2, ![2, 65536]⟩
abbrev S128x128 : Shape := ⟨2, ![128, 128]⟩
abbrev S8192x8x128 : Shape := ⟨3, ![8192, 8, 128]⟩
abbrev S8x512x128 : Shape := ⟨3, ![8, 512, 128]⟩
abbrev S512x8x128 : Shape := ⟨3, ![512, 8, 128]⟩
abbrev S4096x128 : Shape := ⟨2, ![4096, 128]⟩
abbrev S1x65536 : Shape := ⟨2, ![1, 65536]⟩
abbrev S65536 : Shape := ⟨1, ![65536]⟩
abbrev S_ : Shape := ⟨0, ![]⟩
abbrev S8192 : Shape := ⟨1, ![8192]⟩
abbrev S65536x1 : Shape := ⟨2, ![65536, 1]⟩
abbrev S65536x8x128 : Shape := ⟨3, ![65536, 8, 128]⟩
abbrev S8192x1x1 : Shape := ⟨3, ![8192, 1, 1]⟩
abbrev S8192x1 : Shape := ⟨2, ![8192, 1]⟩
abbrev S1x1 : Shape := ⟨2, ![1, 1]⟩
abbrev S512x1 : Shape := ⟨2, ![512, 1]⟩
abbrev S1x512x1 : Shape := ⟨3, ![1, 512, 1]⟩
abbrev S8x512 : Shape := ⟨2, ![8, 512]⟩
abbrev S8x512x1 : Shape := ⟨3, ![8, 512, 1]⟩
abbrev S8x1 : Shape := ⟨2, ![8, 1]⟩
abbrev S8x1x1 : Shape := ⟨3, ![8, 1, 1]⟩
abbrev S1x1x1 : Shape := ⟨3, ![1, 1, 1]⟩

abbrev nBuf : Space → Nat
  | .hbm => 82
  | .vmem => 16
  | .smem => 0
  | _ => 0

abbrev bufTy : (tb : Table) → Fin (tcTables nBuf tb) → BufTy
  | .hbm, ⟨0, _⟩ => ⟨S8x8192x128, .f32⟩
  | .hbm, ⟨1, _⟩ => ⟨S2x65536, .i32⟩
  | .hbm, ⟨2, _⟩ => ⟨S128x128, .f32⟩
  | .hbm, ⟨3, _⟩ => ⟨S8x8192x128, .f32⟩
  | .hbm, ⟨4, _⟩ => ⟨S8192x8x128, .f32⟩
  | .hbm, ⟨5, _⟩ => ⟨S1x65536, .i32⟩
  | .hbm, ⟨6, _⟩ => ⟨S65536, .i32⟩
  | .hbm, ⟨7, _⟩ => ⟨S1x65536, .i32⟩
  | .hbm, ⟨8, _⟩ => ⟨S65536, .i32⟩
  | .hbm, ⟨9, _⟩ => ⟨S_, .i32⟩
  | .hbm, ⟨10, _⟩ => ⟨S65536, .i32⟩
  | .hbm, ⟨11, _⟩ => ⟨S_, .i32⟩
  | .hbm, ⟨12, _⟩ => ⟨S8192, .i32⟩
  | .hbm, ⟨13, _⟩ => ⟨S65536x1, .i32⟩
  | .hbm, ⟨14, _⟩ => ⟨S8192, .i32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x8x128, .f32⟩
  | .hbm, ⟨24, _⟩ => ⟨S_, .f32⟩
  | .hbm, ⟨25, _⟩ => ⟨S8192x8x128, .f32⟩
  | .hbm, ⟨26, _⟩ => ⟨S65536x1, .i32⟩
  | .hbm, ⟨27, _⟩ => ⟨S8192x8x128, .f32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .f32⟩
  | .hbm, ⟨32, _⟩ => ⟨S8192x1x1, .f32⟩
  | .hbm, ⟨33, _⟩ => ⟨S8192x8x128, .f32⟩
  | .hbm, ⟨34, _⟩ => ⟨S8192x8x128, .f32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S_, .i32⟩
  | .hbm, ⟨52, _⟩ => ⟨S8192, .i32⟩
  | .hbm, ⟨53, _⟩ => ⟨S65536x1, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x8x128, .f32⟩
  | .hbm, ⟨75, _⟩ => ⟨S8192, .f32⟩
  | .hbm, ⟨76, _⟩ => ⟨S8192x1, .f32⟩
  | .hbm, ⟨77, _⟩ => ⟨S8x8192x128, .f32⟩
  | .hbm, ⟨78, _⟩ => ⟨S1x1, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S8x512x128, .f32⟩
  | .local _ .vmem, ⟨1, _⟩ => ⟨S8x512x128, .f32⟩
  | .local _ .vmem, ⟨2, _⟩ => ⟨S128x128, .f32⟩
  | .local _ .vmem, ⟨3, _⟩ => ⟨S8x512x128, .f32⟩
  | .local _ .vmem, ⟨4, _⟩ => ⟨S8x512x128, .f32⟩
  | .local _ .vmem, ⟨5, _⟩ => ⟨S512x8x128, .f32⟩
  | .local _ .vmem, ⟨6, _⟩ => ⟨S512x8x128, .f32⟩
  | .local _ .vmem, ⟨7, _⟩ => ⟨S8x512x128, .f32⟩
  | .local _ .vmem, ⟨8, _⟩ => ⟨S8x512x128, .f32⟩
  | .local _ .vmem, ⟨9, _⟩ => ⟨S512x8x128, .f32⟩
  | .local _ .vmem, ⟨10, _⟩ => ⟨S512x8x128, .f32⟩
  | .local _ .vmem, ⟨11, _⟩ => ⟨S512x1, .f32⟩
  | .local _ .vmem, ⟨12, _⟩ => ⟨S512x1, .f32⟩
  | .local _ .vmem, ⟨13, _⟩ => ⟨S8x512x128, .f32⟩
  | .local _ .vmem, ⟨14, _⟩ => ⟨S8x512x128, .f32⟩
  | .local _ .vmem, ⟨15, _⟩ => ⟨S1x1, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_c_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v40 : Ref sig .tc := ⟨.hbm, 65, rfl⟩
abbrev main_c_12 : Ref sig .tc := ⟨.hbm, 66, rfl⟩
abbrev main_v41 : Ref sig .tc := ⟨.hbm, 67, rfl⟩
abbrev main_v42 : Ref sig .tc := ⟨.hbm, 68, rfl⟩
abbrev main_c_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50_0 : Ref sig .tc := ⟨.hbm, 77, rfl⟩
abbrev main_v50_1 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S8x512x128_S8x512x128_0_0_0 : ∀ a, (![0, 0, 0] : Fin 3 → Nat) a + S8x512x128.size a ≤ S8x512x128.size a
  h_S8x512x128 : 0 < S8x512x128.numel
  shapeCasts_S8x512x128_S4096x128 : S8x512x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S4096x128_S8x512x128 : S4096x128.ShapeCasts S8x512x128
  transposes_S8x512x128_p1_0_2_S512x8x128 : S8x512x128.Transposes [1, 0, 2] S512x8x128
  inb_S512x8x128_S512x8x128_0_0_0 : ∀ a, (![0, 0, 0] : Fin 3 → Nat) a + S512x8x128.size a ≤ S512x8x128.size a
  h_S512x8x128 : 0 < S512x8x128.numel
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S_S8192x8x128 : S_.BroadcastsInDim S8192x8x128 (![] : Fin 0 → Fin S8192x8x128.rank)
  bcast_S8192_S8192x1x1_0 : S8192.BroadcastsInDim S8192x1x1 (![0] : Fin 1 → Fin S8192x1x1.rank)
  bcast_S8192x1x1_S8192x8x128_0_1_2 : S8192x1x1.BroadcastsInDim S8192x8x128 (![0, 1, 2] : Fin 3 → Fin S8192x8x128.rank)
  bcast_S8192_S8192x1_0 : S8192.BroadcastsInDim S8192x1 (![0] : Fin 1 → Fin S8192x1.rank)
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S8x512x128_S8x512x128 : S8x512x128.ShapeCasts S8x512x128
  shapeCasts_S512x8x128_S512x8x128 : S512x8x128.ShapeCasts S512x8x128
  transposes_S512x8x128_p1_0_2_S8x512x128 : S512x8x128.Transposes [1, 0, 2] S8x512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1_S1x512x1 : S512x1.ShapeCasts S1x512x1
  shapeCasts_S1x512x1_S1x512x1 : S1x512x1.ShapeCasts S1x512x1
  broadcasts_S1x512x1_S8x512x128 : S1x512x1.Broadcasts S8x512x128
  reduces_S8x512x128_S8x512 : S8x512x128.Reduces [2] S8x512
  shapeCasts_S8x512_S8x512x1 : S8x512.ShapeCasts S8x512x1
  reduces_S8x512x1_S8x1 : S8x512x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  dot_S4096x128_S128x128_S4096x128_1_0_0_1_n_n_wf : DotDims.WF S4096x128 S128x128 S4096x128 [1] [0] [0] [1] [] []
  scatter_S8192_S65536x1_S65536_n_0_0_1_wf : ScatterDims.WF S8192 S65536x1 S65536 [] [0] [0] 1
  gather_S8192x8x128_S65536x1_S65536x8x128_12_0_n_n_0_1_18128_wf : GatherDims.WF S8192x8x128 S65536x1 S65536x8x128 [1, 2] [0] [] [0] [] 1 ![1, 8, 128]
  scatter_S8192x8x128_S65536x1_S65536x8x128_12_0_0_1_wf : ScatterDims.WF S8192x8x128 S65536x1 S65536x8x128 [1, 2] [0] [0] 1
  gather_S8192_S65536x1_S65536_n_0_n_n_0_1_1_wf : GatherDims.WF S8192 S65536x1 S65536 [] [0] [] [0] [] 1 ![1]
  gather_S8192x8x128_S8192x1_S8192x8x128_12_0_n_n_0_1_18128_wf : GatherDims.WF S8192x8x128 S8192x1 S8192x8x128 [1, 2] [0] [] [0] [] 1 ![1, 8, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S8x8192x128.size a
  hwx0_0 : ∀ i : grid0.Coords, EltTy.bits .f32 = 32 ∨ (Rect.block (s := S8x8192x128) S8x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x128.size a ≤ S8x8192x128.size a
  hwx0_2 : ∀ i : grid0.Coords, EltTy.bits .f32 = 32 ∨ (Rect.block (s := S8x8192x128) S8x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8x128.size a ≤ S8192x8x128.size a
  hwx0_3 : ∀ i : grid0.Coords, EltTy.bits .f32 = 32 ∨ (Rect.block (s := S8192x8x128) S512x8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x128.size a ≤ S8x8192x128.size a
  hwx1_0 : ∀ i : grid1.Coords, EltTy.bits .f32 = 32 ∨ (Rect.block (s := S8x8192x128) S8x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x8x128.size a ≤ S8192x8x128.size a
  hwx1_1 : ∀ i : grid1.Coords, EltTy.bits .f32 = 32 ∨ (Rect.block (s := S8192x8x128) S512x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512x128.size a ≤ S8x8192x128.size a
  hwx1_3 : ∀ i : grid1.Coords, EltTy.bits .f32 = 32 ∨ (Rect.block (s := S8x8192x128) S8x512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x8x128_S65536x1_S65536x8x128_12_0_n_n_0_1_18128 : GatherDims S8192x8x128 S65536x1 S65536x8x128 where
  offsetDims := [1, 2]
  collapsedSliceDims := [0]
  operandBatchingDims := []
  startIndicesBatchingDims := []
  startIndexMap := [0]
  indexVectorDim := 1
  sliceSizes := ![1, 8, 128]
  wf := gather_S8192x8x128_S65536x1_S65536x8x128_12_0_n_n_0_1_18128_wf
def scatter_S8192x8x128_S65536x1_S65536x8x128_12_0_0_1 : ScatterDims S8192x8x128 S65536x1 S65536x8x128 where
  updateWindowDims := [1, 2]
  insertedWindowDims := [0]
  scatterDimsToOperandDims := [0]
  indexVectorDim := 1
  wf := scatter_S8192x8x128_S65536x1_S65536x8x128_12_0_0_1_wf
def gather_S8192_S65536x1_S65536_n_0_n_n_0_1_1 : GatherDims S8192 S65536x1 S65536 where
  offsetDims := []
  collapsedSliceDims := [0]
  operandBatchingDims := []
  startIndicesBatchingDims := []
  startIndexMap := [0]
  indexVectorDim := 1
  sliceSizes := ![1]
  wf := gather_S8192_S65536x1_S65536_n_0_n_n_0_1_1_wf
def gather_S8192x8x128_S8192x1_S8192x8x128_12_0_n_n_0_1_18128 : GatherDims S8192x8x128 S8192x1 S8192x8x128 where
  offsetDims := [1, 2]
  collapsedSliceDims := [0]
  operandBatchingDims := []
  startIndicesBatchingDims := []
  startIndexMap := [0]
  indexVectorDim := 1
  sliceSizes := ![1, 8, 128]
  wf := gather_S8192x8x128_S8192x1_S8192x8x128_12_0_n_n_0_1_18128_wf

abbrev win0_0 : Pipeline.Window sig grid0 :=
  Pipeline.Window.ofSpec (Memref.whole main_arg0) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S8x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S512x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50_0) S8x512x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x8192x128 : Shape := ⟨3, ![8, 8192, 128]⟩
abbrev S2x65536 : Shape := ⟨2, ![2, 65536]⟩
abbrev S128x128 : Shape := ⟨2, ![128, 128]⟩
abbrev S1x65536 : Shape := ⟨2, ![1, 65536]⟩
abbrev S65536 : Shape := ⟨1, ![65536]⟩
abbrev S_ : Shape := ⟨0, ![]⟩
abbrev S8192 : Shape := ⟨1, ![8192]⟩
abbrev S65536x1 : Shape := ⟨2, ![65536, 1]⟩
abbrev S8192x8x128 : Shape := ⟨3, ![8192, 8, 128]⟩
abbrev S65536x8x128 : Shape := ⟨3, ![65536, 8, 128]⟩
abbrev S8192x1x1 : Shape := ⟨3, ![8192, 1, 1]⟩
abbrev S8192x1 : Shape := ⟨2, ![8192, 1]⟩
abbrev S1x8192x1 : Shape := ⟨3, ![1, 8192, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S2x65536, .i32⟩
  | .hbm, ⟨2, _⟩ => ⟨S128x128, .f32⟩
  | .hbm, ⟨3, _⟩ => ⟨S8x8192x128, .f32⟩
  | .hbm, ⟨4, _⟩ => ⟨S1x65536, .i32⟩
  | .hbm, ⟨5, _⟩ => ⟨S65536, .i32⟩
  | .hbm, ⟨6, _⟩ => ⟨S1x65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S_, .i32⟩
  | .hbm, ⟨11, _⟩ => ⟨S8192, .i32⟩
  | .hbm, ⟨12, _⟩ => ⟨S65536x1, .i32⟩
  | .hbm, ⟨13, _⟩ => ⟨S8192, .i32⟩
  | .hbm, ⟨14, _⟩ => ⟨S8192x8x128, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x8x128, .f32⟩
  | .hbm, ⟨24, _⟩ => ⟨S_, .f32⟩
  | .hbm, ⟨25, _⟩ => ⟨S8192x8x128, .f32⟩
  | .hbm, ⟨26, _⟩ => ⟨S65536x1, .i32⟩
  | .hbm, ⟨27, _⟩ => ⟨S8192x8x128, .f32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .f32⟩
  | .hbm, ⟨32, _⟩ => ⟨S8192x1x1, .f32⟩
  | .hbm, ⟨33, _⟩ => ⟨S8192x8x128, .f32⟩
  | .hbm, ⟨34, _⟩ => ⟨S8192x8x128, .f32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S_, .i32⟩
  | .hbm, ⟨52, _⟩ => ⟨S8192, .i32⟩
  | .hbm, ⟨53, _⟩ => ⟨S65536x1, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x8x128, .f32⟩
  | .hbm, ⟨75, _⟩ => ⟨S8x8192x128, .f32⟩
  | .hbm, ⟨76, _⟩ => ⟨S1x8192x1, .i1⟩
  | .hbm, ⟨77, _⟩ => ⟨S8x8192x128, .i1⟩
  | .hbm, ⟨78, _⟩ => ⟨S8x8192x128, .f32⟩
  | .hbm, ⟨79, _⟩ => ⟨S8x8192x128, .f32⟩
  | .hbm, ⟨80, _⟩ => ⟨S8x8192x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_c_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  transposes_S8x8192x128_S8192x8x128_1_0_2 : S8x8192x128.Transposes [1, 0, 2] S8192x8x128
  bcast_S_S8192x8x128 : S_.BroadcastsInDim S8192x8x128 (![] : Fin 0 → Fin S8192x8x128.rank)
  bcast_S8192_S8192x1x1_0 : S8192.BroadcastsInDim S8192x1x1 (![0] : Fin 1 → Fin S8192x1x1.rank)
  bcast_S8192x1x1_S8192x8x128_0_1_2 : S8192x1x1.BroadcastsInDim S8192x8x128 (![0, 1, 2] : Fin 3 → Fin S8192x8x128.rank)
  bcast_S8192_S8192x1_0 : S8192.BroadcastsInDim S8192x1 (![0] : Fin 1 → Fin S8192x1.rank)
  transposes_S8192x8x128_S8x8192x128_1_0_2 : S8192x8x128.Transposes [1, 0, 2] S8x8192x128
  bcast_S8192_S1x8192x1_1 : S8192.BroadcastsInDim S1x8192x1 (![1] : Fin 1 → Fin S1x8192x1.rank)
  bcast_S1x8192x1_S8x8192x128_0_1_2 : S1x8192x1.BroadcastsInDim S8x8192x128 (![0, 1, 2] : Fin 3 → Fin S8x8192x128.rank)
  reducesTo_S8x8192x128_S_d0_1_2 : S8x8192x128.ReducesTo [0, 1, 2] S_
  h_S_ : 0 < S_.numel
  dot_S8x8192x128_S128x128_S8x8192x128_2_0_01_1_n_n_wf : DotDims.WF S8x8192x128 S128x128 S8x8192x128 [2] [0] [0, 1] [1] [] []
  scatter_S8192_S65536x1_S65536_n_0_0_1_wf : ScatterDims.WF S8192 S65536x1 S65536 [] [0] [0] 1
  gather_S8192x8x128_S65536x1_S65536x8x128_12_0_n_n_0_1_18128_wf : GatherDims.WF S8192x8x128 S65536x1 S65536x8x128 [1, 2] [0] [] [0] [] 1 ![1, 8, 128]
  scatter_S8192x8x128_S65536x1_S65536x8x128_12_0_0_1_wf : ScatterDims.WF S8192x8x128 S65536x1 S65536x8x128 [1, 2] [0] [0] 1
  gather_S8192_S65536x1_S65536_n_0_n_n_0_1_1_wf : GatherDims.WF S8192 S65536x1 S65536 [] [0] [] [0] [] 1 ![1]
  gather_S8192x8x128_S8192x1_S8192x8x128_12_0_n_n_0_1_18128_wf : GatherDims.WF S8192x8x128 S8192x1 S8192x8x128 [1, 2] [0] [] [0] [] 1 ![1, 8, 128]

variable [Facts₀]

def dot_S8x8192x128_S128x128_S8x8192x128_2_0_01_1_n_n : DotDims S8x8192x128 S128x128 S8x8192x128 where
  lhsContracting := [2]
  rhsContracting := [0]
  lhsNonContracting := [0, 1]
  rhsNonContracting := [1]
  lhsBatch := []
  rhsBatch := []
  wf := dot_S8x8192x128_S128x128_S8x8192x128_2_0_01_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x8x128_S65536x1_S65536x8x128_12_0_n_n_0_1_18128 : GatherDims S8192x8x128 S65536x1 S65536x8x128 where
  offsetDims := [1, 2]
  collapsedSliceDims := [0]
  operandBatchingDims := []
  startIndicesBatchingDims := []
  startIndexMap := [0]
  indexVectorDim := 1
  sliceSizes := ![1, 8, 128]
  wf := gather_S8192x8x128_S65536x1_S65536x8x128_12_0_n_n_0_1_18128_wf
def scatter_S8192x8x128_S65536x1_S65536x8x128_12_0_0_1 : ScatterDims S8192x8x128 S65536x1 S65536x8x128 where
  updateWindowDims := [1, 2]
  insertedWindowDims := [0]
  scatterDimsToOperandDims := [0]
  indexVectorDim := 1
  wf := scatter_S8192x8x128_S65536x1_S65536x8x128_12_0_0_1_wf
def gather_S8192_S65536x1_S65536_n_0_n_n_0_1_1 : GatherDims S8192 S65536x1 S65536 where
  offsetDims := []
  collapsedSliceDims := [0]
  operandBatchingDims := []
  startIndicesBatchingDims := []
  startIndexMap := [0]
  indexVectorDim := 1
  sliceSizes := ![1]
  wf := gather_S8192_S65536x1_S65536_n_0_n_n_0_1_1_wf
def gather_S8192x8x128_S8192x1_S8192x8x128_12_0_n_n_0_1_18128 : GatherDims S8192x8x128 S8192x1 S8192x8x128 where
  offsetDims := [1, 2]
  collapsedSliceDims := [0]
  operandBatchingDims := []
  startIndicesBatchingDims := []
  startIndexMap := [0]
  indexVectorDim := 1
  sliceSizes := ![1, 8, 128]
  wf := gather_S8192x8x128_S8192x1_S8192x8x128_12_0_n_n_0_1_18128_wf

class Facts : Prop extends Facts₀ where

variable [Facts]
-- ==== Proof.KernelRun.lean ====
import proofs.«102582_j85521388798293_2_alg».proof.Proof.Gen.KernelIdeal.Frame

set_option maxRecDepth 16384

noncomputable section

namespace Cert.KernelIdeal.Host

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run with its result buffers named. At the compiled mesh, from any memory with zero counters, every weakly
    fair execution of the whole program on the TensorCores terminates without a fault, and in every final state each
    core's two result buffers hold the contents of the last segment boundary, `W8` — the fold of the launch memory
    through the two regions' write-backs and the stretches of host operations between them — while the three
    argument arrays are as launched. The segments' chain ends with every unscoped buffer at `W8`; the final state is
    read against it buffer by buffer. -/
theorem run_values : θ_run defs (onTc (τ := τ) (main (F := F))) ⟨m, fun _ => 0, ρ⟩ (fun r => ∀ c : Dev nD,
      r.2.mem ((c.tc : Thread nD τ).loc main_v50_0) = Gen.W8 m ρ c (Proc.devRef .tc main_v50_0)
      ∧ r.2.mem ((c.tc : Thread nD τ).loc main_v52) = Gen.W8 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50_0 (by decide)),
       h c _ (mem_uc main_v52 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c)⟩)

end Cert.KernelIdeal.Host

end
-- ==== Proof.ReferenceRunStages.lean ====
import proofs.«102582_j85521388798293_2_alg».proof.Proof.ReferenceStages
import proofs.«102582_j85521388798293_2_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! # The reference's run, read stage by stage

The reference program is a straight line of 82 host operations. Its run leaves every buffer at the fold of the
operations' results over the launch contents. The line is cut into seven consecutive stretches — the cuts fall around
the three inlined calls, whose operations move contents along type equalities — and each stretch is read over
arbitrary contents `V`: a buffer it writes holds the operations' term of what `V` holds at the buffers it reads, a buffer
it does not write holds what `V` holds. The stretches compose by rewriting, and every comparison of terms stays a few
operations deep. -/

/-- The operations in order (a called function's operations stand in its call's place). -/
abbrev ops : List (HloOp τ sig (Elt F)) :=
  [ binary main_arg0 main_arg2 main_v0 ((fun l r => Host.dotGeneral dot_S8x8192x128_S128x128_S8x8192x128_2_0_01_1_n_n none l r) : (⟨S8x8192x128, .f32⟩ : BufTy).Contents (Elt F) → (⟨S128x128, .f32⟩ : BufTy).Contents (Elt F) → (⟨S8x8192x128, .f32⟩ : BufTy).Contents (Elt F)),
    unary main_arg1 main_v1 ((extractStridedSlice S1x65536 ![0, 0] · slices_S2x65536_S1x65536_0_0) : (⟨S2x65536, .i32⟩ : BufTy).Contents (Elt F) → (⟨S1x65536, .i32⟩ : BufTy).Contents (Elt F)),
    reshape main_v1 main_v2 rfl shapeCasts_S1x65536_S65536,
    unary main_arg1 main_v3 ((extractStridedSlice S1x65536 ![1, 0] · slices_S2x65536_S1x65536_1_0) : (⟨S2x65536, .i32⟩ : BufTy).Contents (Elt F) → (⟨S1x65536, .i32⟩ : BufTy).Contents (Elt F)),
    reshape main_v3 main_v4 rfl shapeCasts_S1x65536_S65536,
    nullary main_c (constantI S_ 32 1#32),
    unary main_c main_v5 (broadcastInDim S65536 ![] bcast_S_S65536 : (⟨S_, .i32⟩ : BufTy).Contents (Elt F) → (⟨S65536, .i32⟩ : BufTy).Contents (Elt F)),
    nullary main_c_0 (constantI S_ 32 0#32),
    unary main_c_0 main_v6 (broadcastInDim S8192 ![] bcast_S_S8192 : (⟨S_, .i32⟩ : BufTy).Contents (Elt F) → (⟨S8192, .i32⟩ : BufTy).Contents (Elt F)),
    unary main_v4 main_v7 (broadcastInDim S65536x1 ![0] bcast_S65536_S65536x1_0 : (⟨S65536, .i32⟩ : BufTy).Contents (Elt F) → (⟨S65536x1, .i32⟩ : BufTy).Contents (Elt F)),
    ternary main_v6 main_v7 main_v5 main_v8 ((fun x i u => Host.scatter scatter_S8192_S65536x1_S65536_n_0_0_1 IntOp.addi x i u) : (⟨S8192, .i32⟩ : BufTy).Contents (Elt F) → (⟨S65536x1, .i32⟩ : BufTy).Contents (Elt F) → (⟨S65536, .i32⟩ : BufTy).Contents (Elt F) → (⟨S8192, .i32⟩ : BufTy).Contents (Elt F)),
    unary main_v0 main_v9 ((transpose S8192x8x128 [1, 0, 2] · transposes_S8x8192x128_S8192x8x128_1_0_2) : (⟨S8x8192x128, .f32⟩ : BufTy).Contents (Elt F) → (⟨S8192x8x128, .f32⟩ : BufTy).Contents (Elt F)),
    nullary main_c_1 (constantI S_ 32 0#32),
    unary main_c_1 main_v10 (broadcastInDim S65536 ![] bcast_S_S65536 : (⟨S_, .i32⟩ : BufTy).Contents (Elt F) → (⟨S65536, .i32⟩ : BufTy).Contents (Elt F)),
    binary main_v2 main_v10 main_v11 (cmpi .slt : (⟨S65536, .i32⟩ : BufTy).Contents (Elt F) → (⟨S65536, .i32⟩ : BufTy).Contents (Elt F) → (⟨S65536, .i1⟩ : BufTy).Contents (Elt F)),
    nullary main_c_2 (constantI S_ 32 8192#32),
    unary main_c_2 main_v12 (broadcastInDim S65536 ![] bcast_S_S65536 : (⟨S_, .i32⟩ : BufTy).Contents (Elt F) → (⟨S65536, .i32⟩ : BufTy).Contents (Elt F)),
    binary main_v2 main_v12 main_v13 (addi : (⟨S65536, .i32⟩ : BufTy).Contents (Elt F) → (⟨S65536, .i32⟩ : BufTy).Contents (Elt F) → (⟨S65536, .i32⟩ : BufTy).Contents (Elt F)),
    ternary main_v11 main_v13 main_v2 main_v14 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v14 main_v15 (broadcastInDim S65536x1 ![0] bcast_S65536_S65536x1_0 : (⟨S65536, .i32⟩ : BufTy).Contents (Elt F) → (⟨S65536x1, .i32⟩ : BufTy).Contents (Elt F)),
    binary main_v9 main_v15 main_v16 ((fun x i => Host.gather gather_S8192x8x128_S65536x1_S65536x8x128_12_0_n_n_0_1_18128 x i) : (⟨S8192x8x128, .f32⟩ : BufTy).Contents (Elt F) → (⟨S65536x1, .i32⟩ : BufTy).Contents (Elt F) → (⟨S65536x8x128, .f32⟩ : BufTy).Contents (Elt F)),
    nullary main_cst (constant S_ .f32 0x00000000#32),
    unary main_cst main_v17 (broadcastInDim S8192x8x128 ![] bcast_S_S8192x8x128 : (⟨S_, .f32⟩ : BufTy).Contents (Elt F) → (⟨S8192x8x128, .f32⟩ : BufTy).Contents (Elt F)),
    unary main_v4 main_v18 (broadcastInDim S65536x1 ![0] bcast_S65536_S65536x1_0 : (⟨S65536, .i32⟩ : BufTy).Contents (Elt F) → (⟨S65536x1, .i32⟩ : BufTy).Contents (Elt F)),
    ternary main_v17 main_v18 main_v16 main_v19 ((fun x i u => Host.scatterAdd scatter_S8192x8x128_S65536x1_S65536x8x128_12_0_0_1 x i u) : (⟨S8192x8x128, .f32⟩ : BufTy).Contents (Elt F) → (⟨S65536x1, .i32⟩ : BufTy).Contents (Elt F) → (⟨S65536x8x128, .f32⟩ : BufTy).Contents (Elt F) → (⟨S8192x8x128, .f32⟩ : BufTy).Contents (Elt F)),
    nullary main_c_3 (constantI S_ 32 1#32),
    unary main_c_3 main_v20 (broadcastInDim S8192 ![] bcast_S_S8192 : (⟨S_, .i32⟩ : BufTy).Contents (Elt F) → (⟨S8192, .i32⟩ : BufTy).Contents (Elt F)),
    binary main_v8 main_v20 main_v21 (maxsi : (⟨S8192, .i32⟩ : BufTy).Contents (Elt F) → (⟨S8192, .i32⟩ : BufTy).Contents (Elt F) → (⟨S8192, .i32⟩ : BufTy).Contents (Elt F)),
    unary main_v21 main_v22 (sitofp .f32 : (⟨S8192, .i32⟩ : BufTy).Contents (Elt F) → (⟨S8192, .f32⟩ : BufTy).Contents (Elt F)),
    unary main_v22 main_v23 (broadcastInDim S8192x1x1 ![0] bcast_S8192_S8192x1x1_0 : (⟨S8192, .f32⟩ : BufTy).Contents (Elt F) → (⟨S8192x1x1, .f32⟩ : BufTy).Contents (Elt F)),
    unary main_v23 main_v24 (broadcastInDim S8192x8x128 ![0, 1, 2] bcast_S8192x1x1_S8192x8x128_0_1_2 : (⟨S8192x1x1, .f32⟩ : BufTy).Contents (Elt F) → (⟨S8192x8x128, .f32⟩ : BufTy).Contents (Elt F)),
    binary main_v19 main_v24 main_v25 (Host.divf : (⟨S8192x8x128, .f32⟩ : BufTy).Contents (Elt F) → (⟨S8192x8x128, .f32⟩ : BufTy).Contents (Elt F) → (⟨S8192x8x128, .f32⟩ : BufTy).Contents (Elt F)),
    nullary main_c_4 (constantI S_ 32 0#32),
    unary main_c_4 main_v26 (broadcastInDim S65536 ![] bcast_S_S65536 : (⟨S_, .i32⟩ : BufTy).Contents (Elt F) → (⟨S65536, .i32⟩ : BufTy).Contents (Elt F)),
    binary main_v4 main_v26 main_v27 (cmpi .slt : (⟨S65536, .i32⟩ : BufTy).Contents (Elt F) → (⟨S65536, .i32⟩ : BufTy).Contents (Elt F) → (⟨S65536, .i1⟩ : BufTy).Contents (Elt F)),
    nullary main_c_5 (constantI S_ 32 8192#32),
    unary main_c_5 main_v28 (broadcastInDim S65536 ![] bcast_S_S65536 : (⟨S_, .i32⟩ : BufTy).Contents (Elt F) → (⟨S65536, .i32⟩ : BufTy).Contents (Elt F)),
    binary main_v4 main_v28 main_v29 (addi : (⟨S65536, .i32⟩ : BufTy).Contents (Elt F) → (⟨S65536, .i32⟩ : BufTy).Contents (Elt F) → (⟨S65536, .i32⟩ : BufTy).Contents (Elt F)),
    ternary main_v27 main_v29 main_v4 main_v30 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v30 main_v31 (broadcastInDim S65536x1 ![0] bcast_S65536_S65536x1_0 : (⟨S65536, .i32⟩ : BufTy).Contents (Elt F) → (⟨S65536x1, .i32⟩ : BufTy).Contents (Elt F)),
    binary main_v8 main_v31 main_v32 ((fun x i => Host.gather gather_S8192_S65536x1_S65536_n_0_n_n_0_1_1 x i) : (⟨S8192, .i32⟩ : BufTy).Contents (Elt F) → (⟨S65536x1, .i32⟩ : BufTy).Contents (Elt F) → (⟨S65536, .i32⟩ : BufTy).Contents (Elt F)),
    nullary main_c_6 (constantI S_ 32 1#32),
    unary main_c_6 main_v33 (broadcastInDim S65536 ![] bcast_S_S65536 : (⟨S_, .i32⟩ : BufTy).Contents (Elt F) → (⟨S65536, .i32⟩ : BufTy).Contents (Elt F)),
    binary main_v32 main_v33 main_v34 (cmpi .sgt : (⟨S65536, .i32⟩ : BufTy).Contents (Elt F) → (⟨S65536, .i32⟩ : BufTy).Contents (Elt F) → (⟨S65536, .i1⟩ : BufTy).Contents (Elt F)),
    nullary main_c_7 (constantI S_ 32 4294967295#32),
    TRef.unary (TRef.of (T := ⟨S_, .i32⟩) main_c_7) (TRef.of (T := ⟨S_, .i32⟩) main_call0_v0) id,
    TRef.unary (TRef.of (T := ⟨S_, .i32⟩) main_call0_v0) (TRef.of (T := ⟨S65536, .i32⟩) main_call0_v1) (broadcastInDim S65536 ![] bcast_S_S65536),
    TRef.ternary (TRef.of (T := ⟨S65536, .i1⟩) main_v34) (TRef.of (T := ⟨S65536, .i32⟩) main_v4) (TRef.of (T := ⟨S65536, .i32⟩) main_call0_v1) (TRef.of (T := ⟨S65536, .i32⟩) main_v35) select,
    nullary main_c_8 (constantI S_ 32 2147483648#32),
    unary main_c_8 main_v36 (broadcastInDim S8192 ![] bcast_S_S8192 : (⟨S_, .i32⟩ : BufTy).Contents (Elt F) → (⟨S8192, .i32⟩ : BufTy).Contents (Elt F)),
    unary main_v2 main_v37 (broadcastInDim S65536x1 ![0] bcast_S65536_S65536x1_0 : (⟨S65536, .i32⟩ : BufTy).Contents (Elt F) → (⟨S65536x1, .i32⟩ : BufTy).Contents (Elt F)),
    ternary main_v36 main_v37 main_v35 main_v38 ((fun x i u => Host.scatter scatter_S8192_S65536x1_S65536_n_0_0_1 IntOp.maxsi x i u) : (⟨S8192, .i32⟩ : BufTy).Contents (Elt F) → (⟨S65536x1, .i32⟩ : BufTy).Contents (Elt F) → (⟨S65536, .i32⟩ : BufTy).Contents (Elt F) → (⟨S8192, .i32⟩ : BufTy).Contents (Elt F)),
    nullary main_c_9 (constantI S_ 32 0#32),
    unary main_c_9 main_v39 (broadcastInDim S8192 ![] bcast_S_S8192 : (⟨S_, .i32⟩ : BufTy).Contents (Elt F) → (⟨S8192, .i32⟩ : BufTy).Contents (Elt F)),
    binary main_v38 main_v39 main_v40 (cmpi .sge : (⟨S8192, .i32⟩ : BufTy).Contents (Elt F) → (⟨S8192, .i32⟩ : BufTy).Contents (Elt F) → (⟨S8192, .i1⟩ : BufTy).Contents (Elt F)),
    nullary main_c_10 (constantI S_ 32 0#32),
    nullary main_c_11 (constantI S_ 32 8191#32),
    TRef.unary (TRef.of (T := ⟨S_, .i32⟩) main_c_10) (TRef.of (T := ⟨S_, .i32⟩) main_call1_v0) id,
    TRef.unary (TRef.of (T := ⟨S_, .i32⟩) main_call1_v0) (TRef.of (T := ⟨S8192, .i32⟩) main_call1_v1) (broadcastInDim S8192 ![] bcast_S_S8192),
    TRef.binary (TRef.of (T := ⟨S8192, .i32⟩) main_call1_v1) (TRef.of (T := ⟨S8192, .i32⟩) main_v38) (TRef.of (T := ⟨S8192, .i32⟩) main_call1_v2) maxsi,
    TRef.unary (TRef.of (T := ⟨S_, .i32⟩) main_c_11) (TRef.of (T := ⟨S_, .i32⟩) main_call1_v3) id,
    TRef.unary (TRef.of (T := ⟨S_, .i32⟩) main_call1_v3) (TRef.of (T := ⟨S8192, .i32⟩) main_call1_v4) (broadcastInDim S8192 ![] bcast_S_S8192),
    TRef.binary (TRef.of (T := ⟨S8192, .i32⟩) main_call1_v4) (TRef.of (T := ⟨S8192, .i32⟩) main_call1_v2) (TRef.of (T := ⟨S8192, .i32⟩) main_v41) minsi,
    nullary main_c_12 (constantI S_ 32 0#32),
    unary main_c_12 main_v42 (broadcastInDim S8192 ![] bcast_S_S8192 : (⟨S_, .i32⟩ : BufTy).Contents (Elt F) → (⟨S8192, .i32⟩ : BufTy).Contents (Elt F)),
    binary main_v41 main_v42 main_v43 (cmpi .slt : (⟨S8192, .i32⟩ : BufTy).Contents (Elt F) → (⟨S8192, .i32⟩ : BufTy).Contents (Elt F) → (⟨S8192, .i1⟩ : BufTy).Contents (Elt F)),
    nullary main_c_13 (constantI S_ 32 8192#32),
    unary main_c_13 main_v44 (broadcastInDim S8192 ![] bcast_S_S8192 : (⟨S_, .i32⟩ : BufTy).Contents (Elt F) → (⟨S8192, .i32⟩ : BufTy).Contents (Elt F)),
    binary main_v41 main_v44 main_v45 (addi : (⟨S8192, .i32⟩ : BufTy).Contents (Elt F) → (⟨S8192, .i32⟩ : BufTy).Contents (Elt F) → (⟨S8192, .i32⟩ : BufTy).Contents (Elt F)),
    ternary main_v43 main_v45 main_v41 main_v46 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v46 main_v47 (broadcastInDim S8192x1 ![0] bcast_S8192_S8192x1_0 : (⟨S8192, .i32⟩ : BufTy).Contents (Elt F) → (⟨S8192x1, .i32⟩ : BufTy).Contents (Elt F)),
    binary main_v25 main_v47 main_v48 ((fun x i => Host.gather gather_S8192x8x128_S8192x1_S8192x8x128_12_0_n_n_0_1_18128 x i) : (⟨S8192x8x128, .f32⟩ : BufTy).Contents (Elt F) → (⟨S8192x1, .i32⟩ : BufTy).Contents (Elt F) → (⟨S8192x8x128, .f32⟩ : BufTy).Contents (Elt F)),
    unary main_v48 main_v49 ((transpose S8x8192x128 [1, 0, 2] · transposes_S8192x8x128_S8x8192x128_1_0_2) : (⟨S8192x8x128, .f32⟩ : BufTy).Contents (Elt F) → (⟨S8x8192x128, .f32⟩ : BufTy).Contents (Elt F)),
    unary main_v40 main_v50 (broadcastInDim S1x8192x1 ![1] bcast_S8192_S1x8192x1_1 : (⟨S8192, .i1⟩ : BufTy).Contents (Elt F) → (⟨S1x8192x1, .i1⟩ : BufTy).Contents (Elt F)),
    TRef.unary (TRef.of (T := ⟨S1x8192x1, .i1⟩) main_v50) (TRef.of (T := ⟨S8x8192x128, .i1⟩) main_call2_v0) (broadcastInDim S8x8192x128 ![0, 1, 2] bcast_S1x8192x1_S8x8192x128_0_1_2),
    TRef.ternary (TRef.of (T := ⟨S8x8192x128, .i1⟩) main_call2_v0) (TRef.of (T := ⟨S8x8192x128, .f32⟩) main_v49) (TRef.of (T := ⟨S8x8192x128, .f32⟩) main_v0) (TRef.of (T := ⟨S8x8192x128, .f32⟩) main_v51) select,
    binary main_v51 main_v0 main_v52 (subf : (⟨S8x8192x128, .f32⟩ : BufTy).Contents (Elt F) → (⟨S8x8192x128, .f32⟩ : BufTy).Contents (Elt F) → (⟨S8x8192x128, .f32⟩ : BufTy).Contents (Elt F)),
    unary main_v52 main_v53 (Host.absf : (⟨S8x8192x128, .f32⟩ : BufTy).Contents (Elt F) → (⟨S8x8192x128, .f32⟩ : BufTy).Contents (Elt F)),
    nullary main_cst_14 (constant S_ .f32 0x00000000#32),
    binary main_v53 main_cst_14 main_v54 ((fun x v => Host.reduceAdd x v reducesTo_S8x8192x128_S_d0_1_2 h_S_) : (⟨S8x8192x128, .f32⟩ : BufTy).Contents (Elt F) → (⟨S_, .f32⟩ : BufTy).Contents (Elt F) → (⟨S_, .f32⟩ : BufTy).Contents (Elt F)),
    nullary main_cst_15 (constant S_ .f32 0x4B000000#32),
    binary main_v54 main_cst_15 main_v55 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., ternary_bufs_sub .., binary_bufs_sub .., unary_bufs_sub .., nullary_bufs_sub .., binary_bufs_sub .., nullary_bufs_sub .., binary_bufs_sub ..⟩

/-- The fold over a concatenation is the fold over the second line from the fold over the first. -/
theorem after_append (a b : List (HloOp τ sig (Elt F))) (V : Valuation τ sig (Elt F)) :
    after (a ++ b) V = after b (after a V) := by
  induction a generalizing V with
  | nil => rfl
  | cons op a ih => simp only [List.cons_append, after_cons, ih]

/-! ## The seven stretches -/

/-- Up to the first call: the projection, the incidence rows, the hyperedges' sizes and means, the shared-hyperedge bits, the constant `-1`. -/
abbrev sA : List (HloOp τ sig (Elt F)) :=
  [ binary main_arg0 main_arg2 main_v0 ((fun l r => Host.dotGeneral dot_S8x8192x128_S128x128_S8x8192x128_2_0_01_1_n_n none l r) : (⟨S8x8192x128, .f32⟩ : BufTy).Contents (Elt F) → (⟨S128x128, .f32⟩ : BufTy).Contents (Elt F) → (⟨S8x8192x128, .f32⟩ : BufTy).Contents (Elt F)),
    unary main_arg1 main_v1 ((extractStridedSlice S1x65536 ![0, 0] · slices_S2x65536_S1x65536_0_0) : (⟨S2x65536, .i32⟩ : BufTy).Contents (Elt F) → (⟨S1x65536, .i32⟩ : BufTy).Contents (Elt F)),
    reshape main_v1 main_v2 rfl shapeCasts_S1x65536_S65536,
    unary main_arg1 main_v3 ((extractStridedSlice S1x65536 ![1, 0] · slices_S2x65536_S1x65536_1_0) : (⟨S2x65536, .i32⟩ : BufTy).Contents (Elt F) → (⟨S1x65536, .i32⟩ : BufTy).Contents (Elt F)),
    reshape main_v3 main_v4 rfl shapeCasts_S1x65536_S65536,
    nullary main_c (constantI S_ 32 1#32),
    unary main_c main_v5 (broadcastInDim S65536 ![] bcast_S_S65536 : (⟨S_, .i32⟩ : BufTy).Contents (Elt F) → (⟨S65536, .i32⟩ : BufTy).Contents (Elt F)),
    nullary main_c_0 (constantI S_ 32 0#32),
    unary main_c_0 main_v6 (broadcastInDim S8192 ![] bcast_S_S8192 : (⟨S_, .i32⟩ : BufTy).Contents (Elt F) → (⟨S8192, .i32⟩ : BufTy).Contents (Elt F)),
    unary main_v4 main_v7 (broadcastInDim S65536x1 ![0] bcast_S65536_S65536x1_0 : (⟨S65536, .i32⟩ : BufTy).Contents (Elt F) → (⟨S65536x1, .i32⟩ : BufTy).Contents (Elt F)),
    ternary main_v6 main_v7 main_v5 main_v8 ((fun x i u => Host.scatter scatter_S8192_S65536x1_S65536_n_0_0_1 IntOp.addi x i u) : (⟨S8192, .i32⟩ : BufTy).Contents (Elt F) → (⟨S65536x1, .i32⟩ : BufTy).Contents (Elt F) → (⟨S65536, .i32⟩ : BufTy).Contents (Elt F) → (⟨S8192, .i32⟩ : BufTy).Contents (Elt F)),
    unary main_v0 main_v9 ((transpose S8192x8x128 [1, 0, 2] · transposes_S8x8192x128_S8192x8x128_1_0_2) : (⟨S8x8192x128, .f32⟩ : BufTy).Contents (Elt F) → (⟨S8192x8x128, .f32⟩ : BufTy).Contents (Elt F)),
    nullary main_c_1 (constantI S_ 32 0#32),
    unary main_c_1 main_v10 (broadcastInDim S65536 ![] bcast_S_S65536 : (⟨S_, .i32⟩ : BufTy).Contents (Elt F) → (⟨S65536, .i32⟩ : BufTy).Contents (Elt F)),
    binary main_v2 main_v10 main_v11 (cmpi .slt : (⟨S65536, .i32⟩ : BufTy).Contents (Elt F) → (⟨S65536, .i32⟩ : BufTy).Contents (Elt F) → (⟨S65536, .i1⟩ : BufTy).Contents (Elt F)),
    nullary main_c_2 (constantI S_ 32 8192#32),
    unary main_c_2 main_v12 (broadcastInDim S65536 ![] bcast_S_S65536 : (⟨S_, .i32⟩ : BufTy).Contents (Elt F) → (⟨S65536, .i32⟩ : BufTy).Contents (Elt F)),
    binary main_v2 main_v12 main_v13 (addi : (⟨S65536, .i32⟩ : BufTy).Contents (Elt F) → (⟨S65536, .i32⟩ : BufTy).Contents (Elt F) → (⟨S65536, .i32⟩ : BufTy).Contents (Elt F)),
    ternary main_v11 main_v13 main_v2 main_v14 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v14 main_v15 (broadcastInDim S65536x1 ![0] bcast_S65536_S65536x1_0 : (⟨S65536, .i32⟩ : BufTy).Contents (Elt F) → (⟨S65536x1, .i32⟩ : BufTy).Contents (Elt F)),
    binary main_v9 main_v15 main_v16 ((fun x i => Host.gather gather_S8192x8x128_S65536x1_S65536x8x128_12_0_n_n_0_1_18128 x i) : (⟨S8192x8x128, .f32⟩ : BufTy).Contents (Elt F) → (⟨S65536x1, .i32⟩ : BufTy).Contents (Elt F) → (⟨S65536x8x128, .f32⟩ : BufTy).Contents (Elt F)),
    nullary main_cst (constant S_ .f32 0x00000000#32),
    unary main_cst main_v17 (broadcastInDim S8192x8x128 ![] bcast_S_S8192x8x128 : (⟨S_, .f32⟩ : BufTy).Contents (Elt F) → (⟨S8192x8x128, .f32⟩ : BufTy).Contents (Elt F)),
    unary main_v4 main_v18 (broadcastInDim S65536x1 ![0] bcast_S65536_S65536x1_0 : (⟨S65536, .i32⟩ : BufTy).Contents (Elt F) → (⟨S65536x1, .i32⟩ : BufTy).Contents (Elt F)),
    ternary main_v17 main_v18 main_v16 main_v19 ((fun x i u => Host.scatterAdd scatter_S8192x8x128_S65536x1_S65536x8x128_12_0_0_1 x i u) : (⟨S8192x8x128, .f32⟩ : BufTy).Contents (Elt F) → (⟨S65536x1, .i32⟩ : BufTy).Contents (Elt F) → (⟨S65536x8x128, .f32⟩ : BufTy).Contents (Elt F) → (⟨S8192x8x128, .f32⟩ : BufTy).Contents (Elt F)),
    nullary main_c_3 (constantI S_ 32 1#32),
    unary main_c_3 main_v20 (broadcastInDim S8192 ![] bcast_S_S8192 : (⟨S_, .i32⟩ : BufTy).Contents (Elt F) → (⟨S8192, .i32⟩ : BufTy).Contents (Elt F)),
    binary main_v8 main_v20 main_v21 (maxsi : (⟨S8192, .i32⟩ : BufTy).Contents (Elt F) → (⟨S8192, .i32⟩ : BufTy).Contents (Elt F) → (⟨S8192, .i32⟩ : BufTy).Contents (Elt F)),
    unary main_v21 main_v22 (sitofp .f32 : (⟨S8192, .i32⟩ : BufTy).Contents (Elt F) → (⟨S8192, .f32⟩ : BufTy).Contents (Elt F)),
    unary main_v22 main_v23 (broadcastInDim S8192x1x1 ![0] bcast_S8192_S8192x1x1_0 : (⟨S8192, .f32⟩ : BufTy).Contents (Elt F) → (⟨S8192x1x1, .f32⟩ : BufTy).Contents (Elt F)),
    unary main_v23 main_v24 (broadcastInDim S8192x8x128 ![0, 1, 2] bcast_S8192x1x1_S8192x8x128_0_1_2 : (⟨S8192x1x1, .f32⟩ : BufTy).Contents (Elt F) → (⟨S8192x8x128, .f32⟩ : BufTy).Contents (Elt F)),
    binary main_v19 main_v24 main_v25 (Host.divf : (⟨S8192x8x128, .f32⟩ : BufTy).Contents (Elt F) → (⟨S8192x8x128, .f32⟩ : BufTy).Contents (Elt F) → (⟨S8192x8x128, .f32⟩ : BufTy).Contents (Elt F)),
    nullary main_c_4 (constantI S_ 32 0#32),
    unary main_c_4 main_v26 (broadcastInDim S65536 ![] bcast_S_S65536 : (⟨S_, .i32⟩ : BufTy).Contents (Elt F) → (⟨S65536, .i32⟩ : BufTy).Contents (Elt F)),
    binary main_v4 main_v26 main_v27 (cmpi .slt : (⟨S65536, .i32⟩ : BufTy).Contents (Elt F) → (⟨S65536, .i32⟩ : BufTy).Contents (Elt F) → (⟨S65536, .i1⟩ : BufTy).Contents (Elt F)),
    nullary main_c_5 (constantI S_ 32 8192#32),
    unary main_c_5 main_v28 (broadcastInDim S65536 ![] bcast_S_S65536 : (⟨S_, .i32⟩ : BufTy).Contents (Elt F) → (⟨S65536, .i32⟩ : BufTy).Contents (Elt F)),
    binary main_v4 main_v28 main_v29 (addi : (⟨S65536, .i32⟩ : BufTy).Contents (Elt F) → (⟨S65536, .i32⟩ : BufTy).Contents (Elt F) → (⟨S65536, .i32⟩ : BufTy).Contents (Elt F)),
    ternary main_v27 main_v29 main_v4 main_v30 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    unary main_v30 main_v31 (broadcastInDim S65536x1 ![0] bcast_S65536_S65536x1_0 : (⟨S65536, .i32⟩ : BufTy).Contents (Elt F) → (⟨S65536x1, .i32⟩ : BufTy).Contents (Elt F)),
    binary main_v8 main_v31 main_v32 ((fun x i => Host.gather gather_S8192_S65536x1_S65536_n_0_n_n_0_1_1 x i) : (⟨S8192, .i32⟩ : BufTy).Contents (Elt F) → (⟨S65536x1, .i32⟩ : BufTy).Contents (Elt F) → (⟨S65536, .i32⟩ : BufTy).Contents (Elt F)),
    nullary main_c_6 (constantI S_ 32 1#32),
    unary main_c_6 main_v33 (broadcastInDim S65536 ![] bcast_S_S65536 : (⟨S_, .i32⟩ : BufTy).Contents (Elt F) → (⟨S65536, .i32⟩ : BufTy).Contents (Elt F)),
    binary main_v32 main_v33 main_v34 (cmpi .sgt : (⟨S65536, .i32⟩ : BufTy).Contents (Elt F) → (⟨S65536, .i32⟩ : BufTy).Contents (Elt F) → (⟨S65536, .i1⟩ : BufTy).Contents (Elt F)),
    nullary main_c_7 (constantI S_ 32 4294967295#32) ]
/-- The first call: the candidates. -/
abbrev sB : List (HloOp τ sig (Elt F)) :=
  [ TRef.unary (TRef.of (T := ⟨S_, .i32⟩) main_c_7) (TRef.of (T := ⟨S_, .i32⟩) main_call0_v0) id,
    TRef.unary (TRef.of (T := ⟨S_, .i32⟩) main_call0_v0) (TRef.of (T := ⟨S65536, .i32⟩) main_call0_v1) (broadcastInDim S65536 ![] bcast_S_S65536),
    TRef.ternary (TRef.of (T := ⟨S65536, .i1⟩) main_v34) (TRef.of (T := ⟨S65536, .i32⟩) main_v4) (TRef.of (T := ⟨S65536, .i32⟩) main_call0_v1) (TRef.of (T := ⟨S65536, .i32⟩) main_v35) select ]
/-- Each node's last candidate, its validity bit, the clip's two bounds. -/
abbrev sC : List (HloOp τ sig (Elt F)) :=
  [ nullary main_c_8 (constantI S_ 32 2147483648#32),
    unary main_c_8 main_v36 (broadcastInDim S8192 ![] bcast_S_S8192 : (⟨S_, .i32⟩ : BufTy).Contents (Elt F) → (⟨S8192, .i32⟩ : BufTy).Contents (Elt F)),
    unary main_v2 main_v37 (broadcastInDim S65536x1 ![0] bcast_S65536_S65536x1_0 : (⟨S65536, .i32⟩ : BufTy).Contents (Elt F) → (⟨S65536x1, .i32⟩ : BufTy).Contents (Elt F)),
    ternary main_v36 main_v37 main_v35 main_v38 ((fun x i u => Host.scatter scatter_S8192_S65536x1_S65536_n_0_0_1 IntOp.maxsi x i u) : (⟨S8192, .i32⟩ : BufTy).Contents (Elt F) → (⟨S65536x1, .i32⟩ : BufTy).Contents (Elt F) → (⟨S65536, .i32⟩ : BufTy).Contents (Elt F) → (⟨S8192, .i32⟩ : BufTy).Contents (Elt F)),
    nullary main_c_9 (constantI S_ 32 0#32),
    unary main_c_9 main_v39 (broadcastInDim S8192 ![] bcast_S_S8192 : (⟨S_, .i32⟩ : BufTy).Contents (Elt F) → (⟨S8192, .i32⟩ : BufTy).Contents (Elt F)),
    binary main_v38 main_v39 main_v40 (cmpi .sge : (⟨S8192, .i32⟩ : BufTy).Contents (Elt F) → (⟨S8192, .i32⟩ : BufTy).Contents (Elt F) → (⟨S8192, .i1⟩ : BufTy).Contents (Elt F)),
    nullary main_c_10 (constantI S_ 32 0#32),
    nullary main_c_11 (constantI S_ 32 8191#32) ]
/-- The second call: the clip. -/
abbrev sD : List (HloOp τ sig (Elt F)) :=
  [ TRef.unary (TRef.of (T := ⟨S_, .i32⟩) main_c_10) (TRef.of (T := ⟨S_, .i32⟩) main_call1_v0) id,
    TRef.unary (TRef.of (T := ⟨S_, .i32⟩) main_call1_v0) (TRef.of (T := ⟨S8192, .i32⟩) main_call1_v1) (broadcastInDim S8192 ![] bcast_S_S8192),
    TRef.binary (TRef.of (T := ⟨S8192, .i32⟩) main_call1_v1) (TRef.of (T := ⟨S8192, .i32⟩) main_v38) (TRef.of (T := ⟨S8192, .i32⟩) main_call1_v2) maxsi,
    TRef.unary (TRef.of (T := ⟨S_, .i32⟩) main_c_11) (TRef.of (T := ⟨S_, .i32⟩) main_call1_v3) id,
    TRef.unary (TRef.of (T := ⟨S_, .i32⟩) main_call1_v3) (TRef.of (T := ⟨S8192, .i32⟩) main_call1_v4) (broadcastInDim S8192 ![] bcast_S_S8192),
    TRef.binary (TRef.of (T := ⟨S8192, .i32⟩) main_call1_v4) (TRef.of (T := ⟨S8192, .i32⟩) main_call1_v2) (TRef.of (T := ⟨S8192, .i32⟩) main_v41) minsi ]
/-- The replacement features, batch-major, and the validity bits as a column. -/
abbrev sE : List (HloOp τ sig (Elt F)) :=
  [ nullary main_c_12 (constantI S_ 32 0#32),
    unary main_c_12 main_v42 (broadcastInDim S8192 ![] bcast_S_S8192 : (⟨S_, .i32⟩ : BufTy).Contents (Elt F) → (⟨S8192, .i32⟩ : BufTy).Contents (Elt F)),
    binary main_v41 main_v42 main_v43 (cmpi .slt : (⟨S8192, .i32⟩ : BufTy).Contents (Elt F) → (⟨S8192, .i32⟩ : BufTy).Contents (Elt F) → (⟨S8192, .i1⟩ : BufTy).Contents (Elt F)),
    nullary main_c_13 (constantI S_ 32 8192#32),
    unary main_c_13 main_v44 (broadcastInDim S8192 ![] bcast_S_S8192 : (⟨S_, .i32⟩ : BufTy).Contents (Elt F) → (⟨S8192, .i32⟩ : BufTy).Contents (Elt F)),
    binary main_v41 main_v44 main_v45 (addi : (⟨S8192, .i32⟩ : BufTy).Contents (Elt F) → (⟨S8192, .i32⟩ : BufTy).Contents (Elt F) → (⟨S8192, .i32⟩ : BufTy).Contents (Elt F)),
    ternary main_v43 main_v45 main_v41 main_v46 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v46 main_v47 (broadcastInDim S8192x1 ![0] bcast_S8192_S8192x1_0 : (⟨S8192, .i32⟩ : BufTy).Contents (Elt F) → (⟨S8192x1, .i32⟩ : BufTy).Contents (Elt F)),
    binary main_v25 main_v47 main_v48 ((fun x i => Host.gather gather_S8192x8x128_S8192x1_S8192x8x128_12_0_n_n_0_1_18128 x i) : (⟨S8192x8x128, .f32⟩ : BufTy).Contents (Elt F) → (⟨S8192x1, .i32⟩ : BufTy).Contents (Elt F) → (⟨S8192x8x128, .f32⟩ : BufTy).Contents (Elt F)),
    unary main_v48 main_v49 ((transpose S8x8192x128 [1, 0, 2] · transposes_S8192x8x128_S8x8192x128_1_0_2) : (⟨S8192x8x128, .f32⟩ : BufTy).Contents (Elt F) → (⟨S8x8192x128, .f32⟩ : BufTy).Contents (Elt F)),
    unary main_v40 main_v50 (broadcastInDim S1x8192x1 ![1] bcast_S8192_S1x8192x1_1 : (⟨S8192, .i1⟩ : BufTy).Contents (Elt F) → (⟨S1x8192x1, .i1⟩ : BufTy).Contents (Elt F)) ]
/-- The third call: the replacement where valid, the projection elsewhere. -/
abbrev sG : List (HloOp τ sig (Elt F)) :=
  [ TRef.unary (TRef.of (T := ⟨S1x8192x1, .i1⟩) main_v50) (TRef.of (T := ⟨S8x8192x128, .i1⟩) main_call2_v0) (broadcastInDim S8x8192x128 ![0, 1, 2] bcast_S1x8192x1_S8x8192x128_0_1_2),
    TRef.ternary (TRef.of (T := ⟨S8x8192x128, .i1⟩) main_call2_v0) (TRef.of (T := ⟨S8x8192x128, .f32⟩) main_v49) (TRef.of (T := ⟨S8x8192x128, .f32⟩) main_v0) (TRef.of (T := ⟨S8x8192x128, .f32⟩) main_v51) select ]
/-- The mean absolute change. -/
abbrev sH : List (HloOp τ sig (Elt F)) :=
  [ binary main_v51 main_v0 main_v52 (subf : (⟨S8x8192x128, .f32⟩ : BufTy).Contents (Elt F) → (⟨S8x8192x128, .f32⟩ : BufTy).Contents (Elt F) → (⟨S8x8192x128, .f32⟩ : BufTy).Contents (Elt F)),
    unary main_v52 main_v53 (Host.absf : (⟨S8x8192x128, .f32⟩ : BufTy).Contents (Elt F) → (⟨S8x8192x128, .f32⟩ : BufTy).Contents (Elt F)),
    nullary main_cst_14 (constant S_ .f32 0x00000000#32),
    binary main_v53 main_cst_14 main_v54 ((fun x v => Host.reduceAdd x v reducesTo_S8x8192x128_S_d0_1_2 h_S_) : (⟨S8x8192x128, .f32⟩ : BufTy).Contents (Elt F) → (⟨S_, .f32⟩ : BufTy).Contents (Elt F) → (⟨S_, .f32⟩ : BufTy).Contents (Elt F)),
    nullary main_cst_15 (constant S_ .f32 0x4B000000#32),
    binary main_v54 main_cst_15 main_v55 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = sA ++ (sB ++ (sC ++ (sD ++ (sE ++ (sG ++ sH))))) := rfl

section Generic
variable (V : Valuation τ sig (Elt F))

theorem after_ops : after ops V = after sH (after sG (after sE (after sD (after sC (after sB (after sA V)))))) := by
  rw [ops_split]; simp only [after_append]

/-! ## Each stretch over arbitrary contents -/

theorem A_v0 : after sA V (Proc.devRef .tc main_v0) = ReadP.val_main_v0 (F := F) (V (Proc.devRef .tc main_arg0)) (V (Proc.devRef .tc main_arg2)) := by
  after_results_simp <;> rfl
theorem A_v2 : after sA V (Proc.devRef .tc main_v2) = ReadP.val_main_v2 (F := F) (V (Proc.devRef .tc main_arg1)) := by
  after_results_simp <;> rfl
theorem A_v4 : after sA V (Proc.devRef .tc main_v4) = ReadP.val_main_v4 (F := F) (V (Proc.devRef .tc main_arg1)) := by
  after_results_simp <;> rfl
theorem A_v25 : after sA V (Proc.devRef .tc main_v25) = ReadP.val_main_v25 (F := F) (V (Proc.devRef .tc main_arg0)) (V (Proc.devRef .tc main_arg1)) (V (Proc.devRef .tc main_arg2)) := by
  after_results_simp <;> rfl
theorem A_v34 : after sA V (Proc.devRef .tc main_v34) = ReadP.val_main_v34 (F := F) (V (Proc.devRef .tc main_arg1)) := by
  after_results_simp <;> rfl
theorem A_c_7 : after sA V (Proc.devRef .tc main_c_7) = ReadP.val_main_c_7 (F := F) := by
  after_results_simp <;> rfl
theorem A_arg0 : after sA V (Proc.devRef .tc main_arg0) = V (Proc.devRef .tc main_arg0) := by
  after_results_simp
theorem A_arg1 : after sA V (Proc.devRef .tc main_arg1) = V (Proc.devRef .tc main_arg1) := by
  after_results_simp
theorem A_arg2 : after sA V (Proc.devRef .tc main_arg2) = V (Proc.devRef .tc main_arg2) := by
  after_results_simp

theorem B_v35 : after sB V (Proc.devRef .tc main_v35)
    = select (V (Proc.devRef .tc main_v34)) (V (Proc.devRef .tc main_v4)) (broadcastInDim S65536 ![] bcast_S_S65536 (id (V (Proc.devRef .tc main_c_7)))) := by
  after_results_simp <;> rfl
theorem B_v0 : after sB V (Proc.devRef .tc main_v0) = V (Proc.devRef .tc main_v0) := by
  after_results_simp
theorem B_v2 : after sB V (Proc.devRef .tc main_v2) = V (Proc.devRef .tc main_v2) := by
  after_results_simp
theorem B_v25 : after sB V (Proc.devRef .tc main_v25) = V (Proc.devRef .tc main_v25) := by
  after_results_simp
theorem B_arg0 : after sB V (Proc.devRef .tc main_arg0) = V (Proc.devRef .tc main_arg0) := by
  after_results_simp
theorem B_arg1 : after sB V (Proc.devRef .tc main_arg1) = V (Proc.devRef .tc main_arg1) := by
  after_results_simp
theorem B_arg2 : after sB V (Proc.devRef .tc main_arg2) = V (Proc.devRef .tc main_arg2) := by
  after_results_simp

theorem C_v38 : after sC V (Proc.devRef .tc main_v38) = (Host.scatter scatter_S8192_S65536x1_S65536_n_0_0_1 IntOp.maxsi (broadcastInDim S8192 ![] bcast_S_S8192 (constantI S_ 32 2147483648#32))
        (broadcastInDim S65536x1 ![0] bcast_S65536_S65536x1_0 (V (Proc.devRef .tc main_v2))) (V (Proc.devRef .tc main_v35))) := by
  after_results_simp <;> rfl
theorem C_v40 : after sC V (Proc.devRef .tc main_v40) = cmpi .sge (Host.scatter scatter_S8192_S65536x1_S65536_n_0_0_1 IntOp.maxsi (broadcastInDim S8192 ![] bcast_S_S8192 (constantI S_ 32 2147483648#32))
        (broadcastInDim S65536x1 ![0] bcast_S65536_S65536x1_0 (V (Proc.devRef .tc main_v2))) (V (Proc.devRef .tc main_v35))) (broadcastInDim S8192 ![] bcast_S_S8192 (constantI S_ 32 0#32)) := by
  after_results_simp <;> rfl
theorem C_c_10 : after sC V (Proc.devRef .tc main_c_10) = constantI S_ 32 0#32 := by
  after_results_simp <;> rfl
theorem C_c_11 : after sC V (Proc.devRef .tc main_c_11) = constantI S_ 32 8191#32 := by
  after_results_simp <;> rfl
theorem C_v0 : after sC V (Proc.devRef .tc main_v0) = V (Proc.devRef .tc main_v0) := by
  after_results_simp
theorem C_v25 : after sC V (Proc.devRef .tc main_v25) = V (Proc.devRef .tc main_v25) := by
  after_results_simp
theorem C_arg0 : after sC V (Proc.devRef .tc main_arg0) = V (Proc.devRef .tc main_arg0) := by
  after_results_simp
theorem C_arg1 : after sC V (Proc.devRef .tc main_arg1) = V (Proc.devRef .tc main_arg1) := by
  after_results_simp
theorem C_arg2 : after sC V (Proc.devRef .tc main_arg2) = V (Proc.devRef .tc main_arg2) := by
  after_results_simp

theorem D_v41 : after sD V (Proc.devRef .tc main_v41)
    = minsi (broadcastInDim S8192 ![] bcast_S_S8192 (id (V (Proc.devRef .tc main_c_11))))
        (maxsi (broadcastInDim S8192 ![] bcast_S_S8192 (id (V (Proc.devRef .tc main_c_10)))) (V (Proc.devRef .tc main_v38))) := by
  after_results_simp <;> rfl
theorem D_v0 : after sD V (Proc.devRef .tc main_v0) = V (Proc.devRef .tc main_v0) := by
  after_results_simp
theorem D_v25 : after sD V (Proc.devRef .tc main_v25) = V (Proc.devRef .tc main_v25) := by
  after_results_simp
theorem D_v40 : after sD V (Proc.devRef .tc main_v40) = V (Proc.devRef .tc main_v40) := by
  after_results_simp
theorem D_arg0 : after sD V (Proc.devRef .tc main_arg0) = V (Proc.devRef .tc main_arg0) := by
  after_results_simp
theorem D_arg1 : after sD V (Proc.devRef .tc main_arg1) = V (Proc.devRef .tc main_arg1) := by
  after_results_simp
theorem D_arg2 : after sD V (Proc.devRef .tc main_arg2) = V (Proc.devRef .tc main_arg2) := by
  after_results_simp

theorem E_v49 : after sE V (Proc.devRef .tc main_v49)
    = transpose S8x8192x128 [1, 0, 2]
        (Host.gather gather_S8192x8x128_S8192x1_S8192x8x128_12_0_n_n_0_1_18128 (V (Proc.devRef .tc main_v25))
          (broadcastInDim S8192x1 ![0] bcast_S8192_S8192x1_0
            (select (cmpi .slt (V (Proc.devRef .tc main_v41)) (broadcastInDim S8192 ![] bcast_S_S8192 (constantI S_ 32 0#32))) (addi (V (Proc.devRef .tc main_v41)) (broadcastInDim S8192 ![] bcast_S_S8192 (constantI S_ 32 8192#32))) (V (Proc.devRef .tc main_v41)))))
        transposes_S8192x8x128_S8x8192x128_1_0_2 := by
  after_results_simp <;> rfl
theorem E_v50 : after sE V (Proc.devRef .tc main_v50)
    = broadcastInDim S1x8192x1 ![1] bcast_S8192_S1x8192x1_1 (V (Proc.devRef .tc main_v40)) := by
  after_results_simp <;> rfl
theorem E_v0 : after sE V (Proc.devRef .tc main_v0) = V (Proc.devRef .tc main_v0) := by
  after_results_simp
theorem E_arg0 : after sE V (Proc.devRef .tc main_arg0) = V (Proc.devRef .tc main_arg0) := by
  after_results_simp
theorem E_arg1 : after sE V (Proc.devRef .tc main_arg1) = V (Proc.devRef .tc main_arg1) := by
  after_results_simp
theorem E_arg2 : after sE V (Proc.devRef .tc main_arg2) = V (Proc.devRef .tc main_arg2) := by
  after_results_simp

theorem G_v51 : after sG V (Proc.devRef .tc main_v51)
    = select (broadcastInDim S8x8192x128 ![0, 1, 2] bcast_S1x8192x1_S8x8192x128_0_1_2 (V (Proc.devRef .tc main_v50))) (V (Proc.devRef .tc main_v49)) (V (Proc.devRef .tc main_v0)) := by
  after_results_simp <;> rfl
theorem G_v0 : after sG V (Proc.devRef .tc main_v0) = V (Proc.devRef .tc main_v0) := by
  after_results_simp
theorem G_arg0 : after sG V (Proc.devRef .tc main_arg0) = V (Proc.devRef .tc main_arg0) := by
  after_results_simp
theorem G_arg1 : after sG V (Proc.devRef .tc main_arg1) = V (Proc.devRef .tc main_arg1) := by
  after_results_simp
theorem G_arg2 : after sG V (Proc.devRef .tc main_arg2) = V (Proc.devRef .tc main_arg2) := by
  after_results_simp

theorem H_v55 : after sH V (Proc.devRef .tc main_v55)
    = Host.divf (Host.reduceAdd (Host.absf (subf (V (Proc.devRef .tc main_v51)) (V (Proc.devRef .tc main_v0)))) (constant S_ .f32 0x00000000#32)
        reducesTo_S8x8192x128_S_d0_1_2 h_S_) (constant S_ .f32 0x4B000000#32) := by
  after_results_simp <;> rfl
theorem H_v51 : after sH V (Proc.devRef .tc main_v51) = V (Proc.devRef .tc main_v51) := by
  after_results_simp
theorem H_arg0 : after sH V (Proc.devRef .tc main_arg0) = V (Proc.devRef .tc main_arg0) := by
  after_results_simp
theorem H_arg1 : after sH V (Proc.devRef .tc main_arg1) = V (Proc.devRef .tc main_arg1) := by
  after_results_simp
theorem H_arg2 : after sH V (Proc.devRef .tc main_arg2) = V (Proc.devRef .tc main_arg2) := by
  after_results_simp

/-! ## The stretches composed: each stage is the reference's value of the arguments' contents -/

theorem upto_v35 : (after sB (after sA V)) (Proc.devRef .tc main_v35) = ReadP.val_main_v35 (F := F) (V (Proc.devRef .tc main_arg1)) := by
  rw [B_v35, A_v34, A_v4, A_c_7]
  rfl
theorem upto_v38 : (after sC (after sB (after sA V))) (Proc.devRef .tc main_v38) = ReadP.val_main_v38 (F := F) (V (Proc.devRef .tc main_arg1)) := by
  rw [C_v38, B_v2, A_v2, upto_v35]
  rfl
theorem upto_v40 : (after sC (after sB (after sA V))) (Proc.devRef .tc main_v40) = ReadP.val_main_v40 (F := F) (V (Proc.devRef .tc main_arg1)) := by
  rw [C_v40, B_v2, A_v2, upto_v35]
  rfl
theorem upto_v41 : (after sD (after sC (after sB (after sA V)))) (Proc.devRef .tc main_v41) = ReadP.val_main_v41 (F := F) (V (Proc.devRef .tc main_arg1)) := by
  rw [D_v41, C_c_11, C_c_10, upto_v38]
  rfl
theorem upto_v49 : (after sE (after sD (after sC (after sB (after sA V))))) (Proc.devRef .tc main_v49) = ReadP.val_main_v49 (F := F) (V (Proc.devRef .tc main_arg0)) (V (Proc.devRef .tc main_arg1)) (V (Proc.devRef .tc main_arg2)) := by
  rw [E_v49, D_v25, C_v25, B_v25, A_v25, upto_v41]
  rfl
theorem upto_v50 : (after sE (after sD (after sC (after sB (after sA V))))) (Proc.devRef .tc main_v50) = ReadP.val_main_v50 (F := F) (V (Proc.devRef .tc main_arg1)) := by
  rw [E_v50, D_v40, upto_v40]
  rfl
theorem upto_v51 : (after sG (after sE (after sD (after sC (after sB (after sA V)))))) (Proc.devRef .tc main_v51) = ReadP.val_main_v51 (F := F) (V (Proc.devRef .tc main_arg0)) (V (Proc.devRef .tc main_arg1)) (V (Proc.devRef .tc main_arg2)) := by
  rw [G_v51, upto_v50, upto_v49, E_v0, D_v0, C_v0, B_v0, A_v0]
  rfl

/-- The first result: the replacement features where valid, the projected features elsewhere. -/
theorem result_v51 : after ops V (Proc.devRef .tc main_v51) = ReadP.val_main_v51 (F := F) (V (Proc.devRef .tc main_arg0)) (V (Proc.devRef .tc main_arg1)) (V (Proc.devRef .tc main_arg2)) := by
  rw [after_ops, H_v51, upto_v51]
/-- The second result: the mean absolute change. -/
theorem result_v55 : after ops V (Proc.devRef .tc main_v55) = ReadP.val_main_v55 (F := F) (V (Proc.devRef .tc main_arg0)) (V (Proc.devRef .tc main_arg1)) (V (Proc.devRef .tc main_arg2)) := by
  rw [after_ops, H_v55, upto_v51, G_v0, E_v0, D_v0, C_v0, B_v0, A_v0]
  rfl
theorem result_arg0 : after ops V (Proc.devRef .tc main_arg0) = V (Proc.devRef .tc main_arg0) := by
  rw [after_ops, H_arg0, G_arg0, E_arg0, D_arg0, C_arg0, B_arg0, A_arg0]
theorem result_arg1 : after ops V (Proc.devRef .tc main_arg1) = V (Proc.devRef .tc main_arg1) := by
  rw [after_ops, H_arg1, G_arg1, E_arg1, D_arg1, C_arg1, B_arg1, A_arg1]
theorem result_arg2 : after ops V (Proc.devRef .tc main_arg2) = V (Proc.devRef .tc main_arg2) := by
  rw [after_ops, H_arg2, G_arg2, E_arg2, D_arg2, C_arg2, B_arg2, A_arg2]

end Generic

set_option maxRecDepth 8192 in
set_option maxHeartbeats 32800000 in
/-- On every device, for any float values, from any memory with zero counters: every weakly fair execution of the
    reference terminates with each result at the reference's value of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = ReadP.val_main_v51 (F := F) (m ((c.tc : Thread nD τ).loc main_arg0)) (m ((c.tc : Thread nD τ).loc main_arg1)) (m ((c.tc : Thread nD τ).loc main_arg2))
      ∧ r.2.mem ((c.tc : Thread nD τ).loc main_v55) = ReadP.val_main_v55 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v51).trans (result_v51 (launchContents m c)),
      (h c main_v55).trans (result_v55 (launchContents m c)),
      (h c main_arg0).trans (result_arg0 (launchContents m c)),
      (h c main_arg1).trans (result_arg1 (launchContents m c)),
      (h c main_arg2).trans (result_arg2 (launchContents m c))⟩)
    (run_seq scopedRefs_eq scopedSems_eq defs main (fun _ => ops) main_eq (fun _ => ops_sub) m ρ)

end Cert.ReferenceIdeal.Stages

end
-- ==== Proof.Stretch.lean ====
import proofs.«102582_j85521388798293_2_alg».proof.Proof.Gen.KernelIdeal.Frame
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-! # The host operations between the two regions, as functions of plain arrays

The incidence array `idx : i32[2, 65536]` lists 65536 (node, hyperedge) incidences: row 0 the node, row 1 the
hyperedge. From it and the node-major projected features `xtn : f32[8192, 8, 128]` the host operations compute, per
hyperedge, the mean of its incident nodes' features, and per node the hyperedge whose mean replaces the node's own
features (the largest hyperedge index among the node's incidences whose hyperedge has more than one incidence) together
with a bit saying whether there is such a hyperedge. Each definition below is one stage, spelt with the program's own
operations in the program's order. -/

/-- Row 0 of the incidence array: each incidence's node (`%2`). -/
def nodeOf (idx : (⟨S2x65536, .i32⟩ : BufTy).Contents (Elt F)) : (⟨S65536, .i32⟩ : BufTy).Contents (Elt F) :=
  shapeCast S65536 (extractStridedSlice S1x65536 ![0, 0] idx slices_S2x65536_S1x65536_0_0) shapeCasts_S1x65536_S65536

/-- Row 1 of the incidence array: each incidence's hyperedge (`%4`). -/
def edgeOf (idx : (⟨S2x65536, .i32⟩ : BufTy).Contents (Elt F)) : (⟨S65536, .i32⟩ : BufTy).Contents (Elt F) :=
  shapeCast S65536 (extractStridedSlice S1x65536 ![1, 0] idx slices_S2x65536_S1x65536_1_0) shapeCasts_S1x65536_S65536

/-- The number of incidences of each hyperedge: ones added at the incidences' hyperedges (`%8`). -/
def edgeSize (idx : (⟨S2x65536, .i32⟩ : BufTy).Contents (Elt F)) : (⟨S8192, .i32⟩ : BufTy).Contents (Elt F) :=
  Host.scatter scatter_S8192_S65536x1_S65536_n_0_0_1 IntOp.addi (broadcastInDim S8192 ![] bcast_S_S8192 (constantI S_ 32 0#32))
    (broadcastInDim S65536x1 ![0] bcast_S65536_S65536x1_0 (edgeOf (F := F) idx)) (broadcastInDim S65536 ![] bcast_S_S65536 (constantI S_ 32 1#32))

/-- Each incidence's node, a negative one counted from the end (`%13`). -/
def nodeWrapped (idx : (⟨S2x65536, .i32⟩ : BufTy).Contents (Elt F)) : (⟨S65536, .i32⟩ : BufTy).Contents (Elt F) :=
  select (cmpi .slt (nodeOf (F := F) idx) (broadcastInDim S65536 ![] bcast_S_S65536 (constantI S_ 32 0#32)))
    (addi (nodeOf (F := F) idx) (broadcastInDim S65536 ![] bcast_S_S65536 (constantI S_ 32 8192#32))) (nodeOf (F := F) idx)

/-- Each incidence's node's features (`%15`). -/
def incident (xtn : (⟨S8192x8x128, .f32⟩ : BufTy).Contents (Elt F)) (idx : (⟨S2x65536, .i32⟩ : BufTy).Contents (Elt F)) : (⟨S65536x8x128, .f32⟩ : BufTy).Contents (Elt F) :=
  Host.gather gather_S8192x8x128_S65536x1_S65536x8x128_12_0_n_n_0_1_18128 xtn (broadcastInDim S65536x1 ![0] bcast_S65536_S65536x1_0 (nodeWrapped (F := F) idx))

/-- Per hyperedge, the sum of its incident nodes' features (`%18`). -/
def edgeSum (xtn : (⟨S8192x8x128, .f32⟩ : BufTy).Contents (Elt F)) (idx : (⟨S2x65536, .i32⟩ : BufTy).Contents (Elt F)) : (⟨S8192x8x128, .f32⟩ : BufTy).Contents (Elt F) :=
  Host.scatterAdd scatter_S8192x8x128_S65536x1_S65536x8x128_12_0_0_1
    (broadcastInDim S8192x8x128 ![] bcast_S_S8192x8x128 (constant S_ .f32 0x00000000#32))
    (broadcastInDim S65536x1 ![0] bcast_S65536_S65536x1_0 (edgeOf (F := F) idx)) (incident xtn idx)

/-- Per hyperedge, the mean of its incident nodes' features: the sum over the incidence count, an empty hyperedge's
    count read as one (`%24`). -/
def edgeMean (xtn : (⟨S8192x8x128, .f32⟩ : BufTy).Contents (Elt F)) (idx : (⟨S2x65536, .i32⟩ : BufTy).Contents (Elt F)) : (⟨S8192x8x128, .f32⟩ : BufTy).Contents (Elt F) :=
  Host.divf (edgeSum xtn idx)
    (broadcastInDim S8192x8x128 ![0, 1, 2] bcast_S8192x1x1_S8192x8x128_0_1_2
      (broadcastInDim S8192x1x1 ![0] bcast_S8192_S8192x1x1_0
        (sitofp .f32 (maxsi (edgeSize (F := F) idx) (broadcastInDim S8192 ![] bcast_S_S8192 (constantI S_ 32 1#32))))))

/-- Each incidence's hyperedge, a negative one counted from the end (`%29`). -/
def edgeWrapped (idx : (⟨S2x65536, .i32⟩ : BufTy).Contents (Elt F)) : (⟨S65536, .i32⟩ : BufTy).Contents (Elt F) :=
  select (cmpi .slt (edgeOf (F := F) idx) (broadcastInDim S65536 ![] bcast_S_S65536 (constantI S_ 32 0#32)))
    (addi (edgeOf (F := F) idx) (broadcastInDim S65536 ![] bcast_S_S65536 (constantI S_ 32 8192#32))) (edgeOf (F := F) idx)

/-- Each incidence's hyperedge's incidence count (`%31`). -/
def sizeAt (idx : (⟨S2x65536, .i32⟩ : BufTy).Contents (Elt F)) : (⟨S65536, .i32⟩ : BufTy).Contents (Elt F) :=
  Host.gather gather_S8192_S65536x1_S65536_n_0_n_n_0_1_1 (edgeSize (F := F) idx) (broadcastInDim S65536x1 ![0] bcast_S65536_S65536x1_0 (edgeWrapped (F := F) idx))

/-- Each incidence's hyperedge where that hyperedge has more than one incidence, `-1` elsewhere (`%34`). -/
def candidate (idx : (⟨S2x65536, .i32⟩ : BufTy).Contents (Elt F)) : (⟨S65536, .i32⟩ : BufTy).Contents (Elt F) :=
  select (cmpi .sgt (sizeAt (F := F) idx) (broadcastInDim S65536 ![] bcast_S_S65536 (constantI S_ 32 1#32))) (edgeOf (F := F) idx)
    (broadcastInDim S65536 ![] bcast_S_S65536 (id (constantI S_ 32 4294967295#32)))

/-- Per node, the largest candidate among its incidences, the least integer for a node with no incidence (`%37`). -/
def lastEdge (idx : (⟨S2x65536, .i32⟩ : BufTy).Contents (Elt F)) : (⟨S8192, .i32⟩ : BufTy).Contents (Elt F) :=
  Host.scatter scatter_S8192_S65536x1_S65536_n_0_0_1 IntOp.maxsi (broadcastInDim S8192 ![] bcast_S_S8192 (constantI S_ 32 2147483648#32))
    (broadcastInDim S65536x1 ![0] bcast_S65536_S65536x1_0 (nodeOf (F := F) idx)) (candidate (F := F) idx)

/-- Per node, whether some incidence of it lies in a hyperedge of more than one incidence (`%39`). -/
def validBits (idx : (⟨S2x65536, .i32⟩ : BufTy).Contents (Elt F)) : (⟨S8192, .i1⟩ : BufTy).Contents (Elt F) :=
  cmpi .sge (lastEdge (F := F) idx) (broadcastInDim S8192 ![] bcast_S_S8192 (constantI S_ 32 0#32))

/-- Per node, that hyperedge clipped into `0 … 8191` (`%40`). -/
def clipped (idx : (⟨S2x65536, .i32⟩ : BufTy).Contents (Elt F)) : (⟨S8192, .i32⟩ : BufTy).Contents (Elt F) :=
  minsi (broadcastInDim S8192 ![] bcast_S_S8192 (id (constantI S_ 32 8191#32)))
    (maxsi (broadcastInDim S8192 ![] bcast_S_S8192 (id (constantI S_ 32 0#32))) (lastEdge (F := F) idx))

/-- The same, a negative one counted from the end (`%45`). -/
def chosen (idx : (⟨S2x65536, .i32⟩ : BufTy).Contents (Elt F)) : (⟨S8192, .i32⟩ : BufTy).Contents (Elt F) :=
  select (cmpi .slt (clipped (F := F) idx) (broadcastInDim S8192 ![] bcast_S_S8192 (constantI S_ 32 0#32)))
    (addi (clipped (F := F) idx) (broadcastInDim S8192 ![] bcast_S_S8192 (constantI S_ 32 8192#32))) (clipped (F := F) idx)

/-- Per node, the mean of its chosen hyperedge (`%47`), as a function of the node-major projected features and the
    incidence array. -/
def replacedOf (xtn : (⟨S8192x8x128, .f32⟩ : BufTy).Contents (Elt F)) (idx : (⟨S2x65536, .i32⟩ : BufTy).Contents (Elt F)) : (⟨S8192x8x128, .f32⟩ : BufTy).Contents (Elt F) :=
  Host.gather gather_S8192x8x128_S8192x1_S8192x8x128_12_0_n_n_0_1_18128 (edgeMean xtn idx)
    (broadcastInDim S8192x1 ![0] bcast_S8192_S8192x1_0 (chosen (F := F) idx))

/-! # The stretches read back, from any contents `V` -/

section Generic
variable (V : Valuation τ sig (Elt F))

/-- The five stretches between the regions, one after the other. -/
abbrev between : Valuation τ sig (Elt F) :=
  StableHlo.after hostOps1_4 (StableHlo.after hostOps1_3 (StableHlo.after hostOps1_2
    (StableHlo.after hostOps1_1 (StableHlo.after hostOps1 V))))

/-! ## The first stretch: the incidence rows, the hyperedges' sizes and means, the shared-hyperedge bits -/

theorem first_v2 : StableHlo.after hostOps1 V (Proc.devRef .tc main_v2) = nodeOf (F := F) (V (Proc.devRef .tc main_arg1)) := by
  after_results_simp
  rfl
theorem first_v4 : StableHlo.after hostOps1 V (Proc.devRef .tc main_v4) = edgeOf (F := F) (V (Proc.devRef .tc main_arg1)) := by
  after_results_simp
  rfl
theorem first_v24 : StableHlo.after hostOps1 V (Proc.devRef .tc main_v24) = edgeMean (F := F) (V (Proc.devRef .tc main_v0_1)) (V (Proc.devRef .tc main_arg1)) := by
  after_results_simp
  rfl
theorem first_v33 : StableHlo.after hostOps1 V (Proc.devRef .tc main_v33)
    = cmpi .sgt (sizeAt (F := F) (V (Proc.devRef .tc main_arg1))) (broadcastInDim S65536 ![] bcast_S_S65536 (constantI S_ 32 1#32)) := by
  after_results_simp
  rfl
theorem first_c_7 : StableHlo.after hostOps1 V (Proc.devRef .tc main_c_7) = constantI S_ 32 4294967295#32 := by
  after_results_simp
theorem first_v0_0 : StableHlo.after hostOps1 V (Proc.devRef .tc main_v0_0) = V (Proc.devRef .tc main_v0_0) := by
  after_results_simp

/-! ## The second stretch: the candidates -/

theorem second_v34 : StableHlo.after hostOps1_1 V (Proc.devRef .tc main_v34)
    = select (V (Proc.devRef .tc main_v33)) (V (Proc.devRef .tc main_v4)) (broadcastInDim S65536 ![] bcast_S_S65536 (id (V (Proc.devRef .tc main_c_7)))) := by
  after_results_simp
  rfl
theorem second_v2 : StableHlo.after hostOps1_1 V (Proc.devRef .tc main_v2) = V (Proc.devRef .tc main_v2) := by
  after_results_simp
theorem second_v24 : StableHlo.after hostOps1_1 V (Proc.devRef .tc main_v24) = V (Proc.devRef .tc main_v24) := by
  after_results_simp
theorem second_v0_0 : StableHlo.after hostOps1_1 V (Proc.devRef .tc main_v0_0) = V (Proc.devRef .tc main_v0_0) := by
  after_results_simp

/-! ## The third stretch: each node's last candidate and its validity bit -/

theorem third_v37 : StableHlo.after hostOps1_2 V (Proc.devRef .tc main_v37)
    = Host.scatter scatter_S8192_S65536x1_S65536_n_0_0_1 IntOp.maxsi (broadcastInDim S8192 ![] bcast_S_S8192 (constantI S_ 32 2147483648#32))
        (broadcastInDim S65536x1 ![0] bcast_S65536_S65536x1_0 (V (Proc.devRef .tc main_v2))) (V (Proc.devRef .tc main_v34)) := by
  after_results_simp
theorem third_v39 : StableHlo.after hostOps1_2 V (Proc.devRef .tc main_v39)
    = cmpi .sge (Host.scatter scatter_S8192_S65536x1_S65536_n_0_0_1 IntOp.maxsi (broadcastInDim S8192 ![] bcast_S_S8192 (constantI S_ 32 2147483648#32))
        (broadcastInDim S65536x1 ![0] bcast_S65536_S65536x1_0 (V (Proc.devRef .tc main_v2))) (V (Proc.devRef .tc main_v34))) (broadcastInDim S8192 ![] bcast_S_S8192 (constantI S_ 32 0#32)) := by
  after_results_simp
theorem third_c_10 : StableHlo.after hostOps1_2 V (Proc.devRef .tc main_c_10) = constantI S_ 32 0#32 := by
  after_results_simp
theorem third_c_11 : StableHlo.after hostOps1_2 V (Proc.devRef .tc main_c_11) = constantI S_ 32 8191#32 := by
  after_results_simp
theorem third_v24 : StableHlo.after hostOps1_2 V (Proc.devRef .tc main_v24) = V (Proc.devRef .tc main_v24) := by
  after_results_simp
theorem third_v0_0 : StableHlo.after hostOps1_2 V (Proc.devRef .tc main_v0_0) = V (Proc.devRef .tc main_v0_0) := by
  after_results_simp

/-! ## The fourth stretch: the clip -/

theorem fourth_v40 : StableHlo.after hostOps1_3 V (Proc.devRef .tc main_v40)
    = minsi (broadcastInDim S8192 ![] bcast_S_S8192 (id (V (Proc.devRef .tc main_c_11))))
        (maxsi (broadcastInDim S8192 ![] bcast_S_S8192 (id (V (Proc.devRef .tc main_c_10)))) (V (Proc.devRef .tc main_v37))) := by
  after_results_simp
  rfl
theorem fourth_v24 : StableHlo.after hostOps1_3 V (Proc.devRef .tc main_v24) = V (Proc.devRef .tc main_v24) := by
  after_results_simp
theorem fourth_v39 : StableHlo.after hostOps1_3 V (Proc.devRef .tc main_v39) = V (Proc.devRef .tc main_v39) := by
  after_results_simp
theorem fourth_v0_0 : StableHlo.after hostOps1_3 V (Proc.devRef .tc main_v0_0) = V (Proc.devRef .tc main_v0_0) := by
  after_results_simp

/-! ## The fifth stretch: the replacement features and the validity column -/

theorem fifth_v47 : StableHlo.after hostOps1_4 V (Proc.devRef .tc main_v47)
    = Host.gather gather_S8192x8x128_S8192x1_S8192x8x128_12_0_n_n_0_1_18128 (V (Proc.devRef .tc main_v24))
        (broadcastInDim S8192x1 ![0] bcast_S8192_S8192x1_0
          (select (cmpi .slt (V (Proc.devRef .tc main_v40)) (broadcastInDim S8192 ![] bcast_S_S8192 (constantI S_ 32 0#32))) (addi (V (Proc.devRef .tc main_v40)) (broadcastInDim S8192 ![] bcast_S_S8192 (constantI S_ 32 8192#32))) (V (Proc.devRef .tc main_v40)))) := by
  after_results_simp
theorem fifth_v49 : StableHlo.after hostOps1_4 V (Proc.devRef .tc main_v49)
    = shapeCast S8192x1 (uitofp (F := F) .f32 (V (Proc.devRef .tc main_v39))) shapeCasts_S8192_S8192x1 := by
  after_results_simp
  rfl
theorem fifth_v0_0 : StableHlo.after hostOps1_4 V (Proc.devRef .tc main_v0_0) = V (Proc.devRef .tc main_v0_0) := by
  after_results_simp

/-! ## The five stretches composed -/

theorem between_v37 : StableHlo.after hostOps1_2 (StableHlo.after hostOps1_1 (StableHlo.after hostOps1 V)) (Proc.devRef .tc main_v37)
    = lastEdge (F := F) (V (Proc.devRef .tc main_arg1)) := by
  rw [third_v37, second_v2, first_v2, second_v34, first_v33, first_v4, first_c_7]
  rfl

theorem between_v47 : between V (Proc.devRef .tc main_v47) = replacedOf (F := F) (V (Proc.devRef .tc main_v0_1)) (V (Proc.devRef .tc main_arg1)) := by
  show StableHlo.after hostOps1_4 _ _ = _
  rw [fifth_v47, fourth_v24, third_v24, second_v24, first_v24, fourth_v40, third_c_10, third_c_11, between_v37]
  rfl

theorem between_v49 : between V (Proc.devRef .tc main_v49)
    = shapeCast S8192x1 (uitofp (F := F) .f32 (validBits (F := F) (V (Proc.devRef .tc main_arg1)))) shapeCasts_S8192_S8192x1 := by
  show StableHlo.after hostOps1_4 _ _ = _
  rw [fifth_v49, fourth_v39, third_v39, second_v2, first_v2, second_v34, first_v33, first_v4, first_c_7]
  rfl

theorem between_v0_0 : between V (Proc.devRef .tc main_v0_0) = V (Proc.devRef .tc main_v0_0) := by
  show StableHlo.after hostOps1_4 _ _ = _
  rw [fifth_v0_0, fourth_v0_0, third_v0_0, second_v0_0, first_v0_0]

/-- The tail after the second region: the scalar result is the region's one-by-one sum over `2 ^ 23`. -/
theorem tail_v52 : StableHlo.after hostOps2 V (Proc.devRef .tc main_v52)
    = Host.divf (shapeCast S_ (V (Proc.devRef .tc main_v50_1)) shapeCasts_S1x1_S_) (constant S_ .f32 0x4B000000#32) := by
  after_results_simp
  rfl
theorem tail_v50_0 : StableHlo.after hostOps2 V (Proc.devRef .tc main_v50_0) = V (Proc.devRef .tc main_v50_0) := by
  after_results_simp

end Generic

/-! # The boundary contents of the run, as terms of the regions' arrays and the launch memory -/

variable (m : (ℓ : Loc nD τ sig) → Buf (Elt F) ℓ) (ρ : Dev nD → PrngReg)

/-- The first result is the second region's fourth array as the region leaves it: the tail does not write it. -/
theorem W8_main_v50_0 (c : Dev nD) :
    Gen.W8 m ρ c (Proc.devRef .tc main_v50_0) = (Gen.dat1 (Gen.V6 m ρ) c).arrAt 3 cfg1.N :=
  (tail_v50_0 (Gen.W7 m ρ c)).trans (Gen.W7_arr m ρ c 3)

/-- The second result is the second region's one-by-one array, read as a scalar, over `2 ^ 23`. -/
theorem W8_main_v52 (c : Dev nD) :
    Gen.W8 m ρ c (Proc.devRef .tc main_v52)
      = Host.divf (shapeCast S_ ((Gen.dat1 (Gen.V6 m ρ) c).arrAt 4 cfg1.N) shapeCasts_S1x1_S_) (constant S_ .f32 0x4B000000#32) :=
  (tail_v52 (Gen.W7 m ρ c)).trans
    (congrArg (fun a => Host.divf (shapeCast S_ a shapeCasts_S1x1_S_) (constant (F := F) S_ .f32 0x4B000000#32)) (Gen.W7_arr m ρ c 4))

/-- The second region finds the batch-major projected features as the first region left them. -/
theorem V6_main_v0_0 (c : Dev nD) : Gen.V6 m ρ c main_v0_0 = (Gen.dat0 (Gen.V0 m ρ) c).arrAt 2 cfg0.N :=
  (between_v0_0 (Gen.W1 m ρ c)).trans (Gen.W1_arr m ρ c 2)

/-- The launch contents of the incidence array, through the first region. -/
theorem W1_main_arg1 (c : Dev nD) :
    Gen.W1 m ρ c (Proc.devRef .tc main_arg1) = m ((c.tc : Thread nD τ).loc main_arg1) :=
  Gen.W1_of_ne m ρ c main_arg1 (by decide)

/-- The second region finds, as its replacement features, `replacedOf` of the first region's node-major array and the
    launch contents of the incidence array. -/
theorem V6_main_v47 (c : Dev nD) :
    Gen.V6 m ρ c main_v47
      = replacedOf (F := F) ((Gen.dat0 (Gen.V0 m ρ) c).arrAt 3 cfg0.N) (m ((c.tc : Thread nD τ).loc main_arg1)) := by
  refine (between_v47 (Gen.W1 m ρ c)).trans ?_
  rw [W1_main_arg1 m ρ c]
  exact congrArg (fun a => replacedOf (F := F) a (m ((c.tc : Thread nD τ).loc main_arg1))) (Gen.W1_arr m ρ c 3)

/-- The second region finds, as its validity column, the validity bits of the launch contents of the incidence array,
    as floats, one per row. -/
theorem V6_main_v49 (c : Dev nD) :
    Gen.V6 m ρ c main_v49
      = shapeCast S8192x1 (uitofp (F := F) .f32 (validBits (F := F) (m ((c.tc : Thread nD τ).loc main_arg1)))) shapeCasts_S8192_S8192x1 := by
  refine (between_v49 (Gen.W1 m ρ c)).trans ?_
  rw [W1_main_arg1 m ρ c]

/-- The first region finds the arguments as launched. -/
theorem V0_main_arg0 (c : Dev nD) : Gen.V0 m ρ c main_arg0 = m ((c.tc : Thread nD τ).loc main_arg0) := rfl
theorem V0_main_arg1 (c : Dev nD) : Gen.V0 m ρ c main_arg1 = m ((c.tc : Thread nD τ).loc main_arg1) := rfl
theorem V0_main_arg2 (c : Dev nD) : Gen.V0 m ρ c main_arg2 = m ((c.tc : Thread nD τ).loc main_arg2) := rfl

end Cert.KernelIdeal.Host

end
-- ==== Proof.Agree.lean ====
import proofs.«102582_j85521388798293_2_alg».proof.Proof.Stretch
import proofs.«102582_j85521388798293_2_alg».proof.Proof.ReferenceStages

set_option maxRecDepth 16384

noncomputable section

namespace Cert.KernelIdeal.Host

open Idealize.ShloMosaic Idealize.ShloMosaic.TcCoe Idealize.SL.Sem Idealize.ShloMosaic.StableHlo
open Cert.KernelIdeal

variable {F : FTy → Type} [FloatOps F]

/-! # The kernel's host operations are the reference's

Between its two regions the kernel applies to the incidence array, and to the node-major projected features, the very
operations the reference applies to them: stage by stage the two programs' terms are the same term, the shape
abbreviations and dimension records of the two printed programs being different constants with equal bodies. Each
stage is read against the reference's value of the same stage, the earlier stages rewritten first, so that every
comparison is between two terms one operation deep. -/

section Stages
variable (x0 : (⟨Cert.ReferenceIdeal.S8x8192x128, .f32⟩ : BufTy).Contents (Elt F)) (x1 : (⟨Cert.ReferenceIdeal.S2x65536, .i32⟩ : BufTy).Contents (Elt F)) (x2 : (⟨Cert.ReferenceIdeal.S128x128, .f32⟩ : BufTy).Contents (Elt F))

theorem nodeOf_eq : nodeOf (F := F) x1 = Cert.ReferenceIdeal.ReadP.val_main_v2 (F := F) x1 := rfl

theorem edgeOf_eq : edgeOf (F := F) x1 = Cert.ReferenceIdeal.ReadP.val_main_v4 (F := F) x1 := rfl

theorem edgeSize_eq : edgeSize (F := F) x1 = Cert.ReferenceIdeal.ReadP.val_main_v8 (F := F) x1 := by
  unfold edgeSize Cert.ReferenceIdeal.ReadP.val_main_v8 Cert.ReferenceIdeal.ReadP.val_main_v7
  rw [edgeOf_eq x1]
  rfl

theorem nodeWrapped_eq : nodeWrapped (F := F) x1 = Cert.ReferenceIdeal.ReadP.val_main_v14 (F := F) x1 := by
  unfold nodeWrapped Cert.ReferenceIdeal.ReadP.val_main_v14 Cert.ReferenceIdeal.ReadP.val_main_v11 Cert.ReferenceIdeal.ReadP.val_main_v13
  rw [nodeOf_eq x1]
  rfl

theorem incident_eq : incident (F := F) (Cert.ReferenceIdeal.ReadP.val_main_v9 (F := F) x0 x2) x1 = Cert.ReferenceIdeal.ReadP.val_main_v16 (F := F) x0 x1 x2 := by
  unfold incident Cert.ReferenceIdeal.ReadP.val_main_v16 Cert.ReferenceIdeal.ReadP.val_main_v15
  rw [nodeWrapped_eq x1]
  rfl

theorem edgeSum_eq : edgeSum (F := F) (Cert.ReferenceIdeal.ReadP.val_main_v9 (F := F) x0 x2) x1 = Cert.ReferenceIdeal.ReadP.val_main_v19 (F := F) x0 x1 x2 := by
  unfold edgeSum Cert.ReferenceIdeal.ReadP.val_main_v19 Cert.ReferenceIdeal.ReadP.val_main_v18
  rw [incident_eq x0 x1 x2, edgeOf_eq x1]
  rfl

theorem edgeMean_eq : edgeMean (F := F) (Cert.ReferenceIdeal.ReadP.val_main_v9 (F := F) x0 x2) x1 = Cert.ReferenceIdeal.ReadP.val_main_v25 (F := F) x0 x1 x2 := by
  unfold edgeMean Cert.ReferenceIdeal.ReadP.val_main_v25 Cert.ReferenceIdeal.ReadP.val_main_v24 Cert.ReferenceIdeal.ReadP.val_main_v23 Cert.ReferenceIdeal.ReadP.val_main_v22 Cert.ReferenceIdeal.ReadP.val_main_v21
  rw [edgeSum_eq x0 x1 x2, edgeSize_eq x1]
  rfl

theorem edgeWrapped_eq : edgeWrapped (F := F) x1 = Cert.ReferenceIdeal.ReadP.val_main_v30 (F := F) x1 := by
  unfold edgeWrapped Cert.ReferenceIdeal.ReadP.val_main_v30 Cert.ReferenceIdeal.ReadP.val_main_v27 Cert.ReferenceIdeal.ReadP.val_main_v29
  rw [edgeOf_eq x1]
  rfl

theorem sizeAt_eq : sizeAt (F := F) x1 = Cert.ReferenceIdeal.ReadP.val_main_v32 (F := F) x1 := by
  unfold sizeAt Cert.ReferenceIdeal.ReadP.val_main_v32 Cert.ReferenceIdeal.ReadP.val_main_v31
  rw [edgeSize_eq x1, edgeWrapped_eq x1]
  rfl

theorem candidate_eq : candidate (F := F) x1 = Cert.ReferenceIdeal.ReadP.val_main_v35 (F := F) x1 := by
  unfold candidate Cert.ReferenceIdeal.ReadP.val_main_v35 Cert.ReferenceIdeal.ReadP.val_main_v34
  rw [sizeAt_eq x1, edgeOf_eq x1]
  rfl

theorem lastEdge_eq : lastEdge (F := F) x1 = Cert.ReferenceIdeal.ReadP.val_main_v38 (F := F) x1 := by
  unfold lastEdge Cert.ReferenceIdeal.ReadP.val_main_v38 Cert.ReferenceIdeal.ReadP.val_main_v37
  rw [candidate_eq x1, nodeOf_eq x1]
  rfl

theorem clipped_eq : clipped (F := F) x1 = Cert.ReferenceIdeal.ReadP.val_main_v41 (F := F) x1 := by
  unfold clipped Cert.ReferenceIdeal.ReadP.val_main_v41 Cert.ReferenceIdeal.ReadP.val_main_call1_v2
  rw [lastEdge_eq x1]
  rfl

theorem chosen_eq : chosen (F := F) x1 = Cert.ReferenceIdeal.ReadP.val_main_v46 (F := F) x1 := by
  unfold chosen Cert.ReferenceIdeal.ReadP.val_main_v46 Cert.ReferenceIdeal.ReadP.val_main_v43 Cert.ReferenceIdeal.ReadP.val_main_v45
  rw [clipped_eq x1]
  rfl

/-- The validity bits are the reference's. -/
theorem validBits_eq : validBits (F := F) x1 = Cert.ReferenceIdeal.ReadP.val_main_v40 (F := F) x1 := by
  unfold validBits Cert.ReferenceIdeal.ReadP.val_main_v40
  rw [lastEdge_eq x1]
  rfl

/-- The replacement features, of the reference's node-major projected features, are the reference's. -/
theorem replacedOf_eq :
    replacedOf (F := F) (Cert.ReferenceIdeal.ReadP.val_main_v9 (F := F) x0 x2) x1 = Cert.ReferenceIdeal.ReadP.val_main_v48 (F := F) x0 x1 x2 := by
  unfold replacedOf Cert.ReferenceIdeal.ReadP.val_main_v48 Cert.ReferenceIdeal.ReadP.val_main_v47
  rw [edgeMean_eq x0 x1 x2, chosen_eq x1]
  rfl

end Stages

end Cert.KernelIdeal.Host

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«102582_j85521388798293_2_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibFlatten.lean ====
/-
  Two leading axes merged into one, and one leading axis split in two.

  A shape cast keeps the row-major order of the entries. So an `[A, B, C]` array cast to `[N, C]` (`N = A · B`) has, in
  row `p · B + n`, the row `(p, n)` of the operand, and the cast back reads the same entries the other way round.
  The row index `r` is a variable with the equation `r = p · B + n`, so that the lemmas apply whatever way a program's
  text spells the merged extent.
-/
import Idealize.ShloMosaic.Lib.Pipeline.Value
import Idealize.ShloMosaic.Lib.ValueIdx

namespace Idealize.ShloMosaic.LibFlatten

open Idealize.ShloMosaic Idealize.ShloMosaic.ValueIdx

variable {α : Type}

/-- An `[A, B, C]` array cast to `[N, C]` reads, at `(r, k)` with `r = p · B + n`, the operand at `(p, n, k)`. -/
theorem merge_apply {A B C N : ℕ} (v : (⟨3, ![A, B, C]⟩ : Shape).Idx → α)
    (h : (⟨3, ![A, B, C]⟩ : Shape).ShapeCasts ⟨2, ![N, C]⟩) (p : Fin A) (n : Fin B) (k : Fin C) (r : Fin N)
    (hr : r.val = p.val * B + n.val) : shapeCast ⟨2, ![N, C]⟩ v h (ix2 r k) = v (ix3 p n k) :=
  shapeCast_apply v h _ _ (by
    rw [Shape.rowMajor_val_three, Shape.rowMajor_val_two]
    show (p.val * B + n.val) * C + k.val = r.val * C + k.val
    rw [hr])

/-- An `[N, C]` array cast to `[A, B, C]` reads, at `(p, n, k)`, the operand at `(r, k)` with `r = p · B + n`. -/
theorem split_apply {A B C N : ℕ} (v : (⟨2, ![N, C]⟩ : Shape).Idx → α)
    (h : (⟨2, ![N, C]⟩ : Shape).ShapeCasts ⟨3, ![A, B, C]⟩) (p : Fin A) (n : Fin B) (k : Fin C) (r : Fin N)
    (hr : r.val = p.val * B + n.val) : shapeCast ⟨3, ![A, B, C]⟩ v h (ix3 p n k) = v (ix2 r k) :=
  shapeCast_apply v h _ _ (by
    rw [Shape.rowMajor_val_three, Shape.rowMajor_val_two]
    show r.val * C + k.val = (p.val * B + n.val) * C + k.val
    rw [hr])

end Idealize.ShloMosaic.LibFlatten
-- ==== Proof.Product.lean ====
/-
  The first region's product, index by index.

  The region multiplies the node features `x : [8, 8192, 128]` by the weight `w : [128, 128]`, tile by tile of 512 rows,
  and writes the product twice: batch-major `[8, 8192, 128]` and node-major `[8192, 8, 128]`. Here: one tile's product at
  an index (the two leading axes merged, one matrix product, the axes split again; the second copy the transpose of the
  first), each write-back as the block of ONE whole-array function, the blocks covering the arrays, and so the two arrays
  after the region at every index: the sum over `k` of `x (b, s, k) * w (k, o)`.
-/
import proofs.«102582_j85521388798293_2_alg».proof.Proof.Gen.KernelIdeal.Frame
import proofs.«102582_j85521388798293_2_alg».proof.Proof.LibMatmul2
import proofs.«102582_j85521388798293_2_alg».proof.Proof.LibFlatten
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

/-! ## One tile's product at an index -/

/-- The product's dimension numbers contract the left operand's axis 1 with the right operand's axis 0 … -/
theorem dot_rank : dot_S4096x128_S128x128_S4096x128_1_0_0_1_n_n.contr.rank = 1 := rfl
/-- … over 128 positions; -/
theorem dot_size : dot_S4096x128_S128x128_S4096x128_1_0_0_1_n_n.contr.size ⟨0, by rw [dot_rank]; exact Nat.one_pos⟩ = 128 := rfl
/-- the left operand's row is the result's row … -/
theorem dot_lhs0 (j : S4096x128.Idx) (q : dot_S4096x128_S128x128_S4096x128_1_0_0_1_n_n.contr.Idx) :
    (dot_S4096x128_S128x128_S4096x128_1_0_0_1_n_n.lhsIdx j q 0).val = (j 0).val := by
  simp [DotDims.lhsIdx, dot_S4096x128_S128x128_S4096x128_1_0_0_1_n_n]; rfl
/-- … and the right operand's column the result's column. -/
theorem dot_rhs1 (j : S4096x128.Idx) (q : dot_S4096x128_S128x128_S4096x128_1_0_0_1_n_n.contr.Idx) :
    (dot_S4096x128_S128x128_S4096x128_1_0_0_1_n_n.rhsIdx j q 1).val = (j 1).val := by
  simp [DotDims.rhsIdx, dot_S4096x128_S128x128_S4096x128_1_0_0_1_n_n]; rfl

/-- The batch-major tile at `(b, r, o)`: the sum over `k` of the tile of `x` at `(b, r, k)` times `w` at `(k, o)`. -/
theorem pay1_apply (x0 : Vec Ideal S8x512x128 .f32) (x1 : Vec Ideal S128x128 .f32) (b : Fin 8) (r : Fin 512) (o : Fin 128) :
    k0_pay1 x0 x1 (ix3 b r o) = ∑ k : Fin 128, x0 (ix3 b r k) * x1 (ix2 k o) := by
  unfold k0_pay1
  have hR : b.val * 512 + r.val < 4096 := by have := b.isLt; have := r.isLt; omega
  refine (LibFlatten.split_apply _ _ b r o ⟨b.val * 512 + r.val, hR⟩ rfl).trans ?_
  refine (LibMatmul2.matmul_zero_apply dot_S4096x128_S128x128_S4096x128_1_0_0_1_n_n dot_rank dot_size rfl rfl
    dot_lhs0 dot_rhs1 none _ _ ⟨b.val * 512 + r.val, hR⟩ o).trans ?_
  refine Finset.sum_congr rfl fun k _ => ?_
  congr 1
  exact LibFlatten.merge_apply x0 _ b r k ⟨b.val * 512 + r.val, hR⟩ rfl

/-- The node-major tile at `(r, b, o)` is the batch-major tile at `(b, r, o)`. -/
theorem pay2_apply (x0 : Vec Ideal S8x512x128 .f32) (x1 : Vec Ideal S128x128 .f32) (r : Fin 512) (b : Fin 8) (o : Fin 128) :
    k0_pay2 x0 x1 (ix3 r b o) = ∑ k : Fin 128, x0 (ix3 b r k) * x1 (ix2 k o) := by
  unfold k0_pay2
  refine (transpose_apply _ _ _ (ix3 r b o) (ix3 b r o) (fun a => ?_)).trans (pay1_apply x0 x1 b r o)
  match a with
  | ⟨0, _⟩ => rfl
  | ⟨1, _⟩ => rfl
  | ⟨2, _⟩ => rfl

/-! ## The tiles the points read -/

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The windows' index maps at each of the 16 grid points: point `t` reads rows `512 t …` of `x` and the whole of `w`,
    and writes rows `512 t …` of either product array (axis 1 of the batch-major one, axis 0 of the node-major one). -/
theorem index_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The tile of `x` at point `t` is rows `512 t … 512 t + 511` of the array. -/
theorem xtile_apply (c : Dev nD) (t : Fin cfg0.N) (y : S8x512x128.Idx) (i : S8x8192x128.Idx)
    (h0 : (i 0).val = (y 0).val) (h1 : (i 1).val = t.val * 512 + (y 1).val) (h2 : (i 2).val = (y 2).val) :
    (iblk0 V c 0 t : Vec Ideal S8x512x128 .f32) y = (V c main_arg0 : S8x8192x128.Idx → Elt Ideal .f32) i := by
  obtain ⟨e0, e1, e2, -⟩ := index_facts t
  unfold iblk0
  rw [View.read_apply]
  show V c main_arg0 _ = V c main_arg0 _
  congr 1
  funext a
  apply Fin.ext
  match a with
  | ⟨0, _⟩ => show win0_0.index t (0 : Fin 3) * 8 + 1 * (y 0).val = (i 0).val; omega
  | ⟨1, _⟩ => show win0_0.index t (1 : Fin 3) * 512 + 1 * (y 1).val = (i 1).val; omega
  | ⟨2, _⟩ => show win0_0.index t (2 : Fin 3) * 128 + 1 * (y 2).val = (i 2).val; omega

/-- The tile of `w` at every point is the whole array. -/
theorem wtile_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → Elt Ideal .f32) i := by
  obtain ⟨-, -, -, e0, e1, -⟩ := index_facts t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-! ## The two product arrays as whole-array functions -/

/-- `x · w` on the batch-major index set: at `(b, s, o)` the sum over `k` of `x (b, s, k) * w (k, o)`. -/
def prodB (a0 : S8x8192x128.Idx → EReal) (a2 : S128x128.Idx → EReal) : S8x8192x128.Idx → EReal :=
  fun i => ∑ k : Fin 128, a0 (ix3 (n0 := 8) (n1 := 8192) (i 0) (i 1) k) * a2 (ix2 (n1 := 128) k (i 2))

/-- The same on the node-major index set: at `(s, b, o)`. -/
def prodN (a0 : S8x8192x128.Idx → EReal) (a2 : S128x128.Idx → EReal) : S8192x8x128.Idx → EReal :=
  fun i => ∑ k : Fin 128, a0 (ix3 (n0 := 8) (n1 := 8192) (i 1) (i 0) k) * a2 (ix2 (n1 := 128) k (i 2))

/-- Point `t`'s batch-major tile at `y` is `prodB` at row `512 t + y 1`. -/
theorem tileB_apply (c : Dev nD) (t : Fin cfg0.N) (y : S8x512x128.Idx) (i : S8x8192x128.Idx)
    (h0 : (i 0).val = (y 0).val) (h1 : (i 1).val = t.val * 512 + (y 1).val) (h2 : (i 2).val = (y 2).val) :
    k0_pay1 (iblk0 V c 0 t) (iblk0 V c 1 t) y = prodB (V c main_arg0) (V c main_arg2) i := by
  obtain ⟨b, r, o, rfl⟩ : ∃ (b : Fin 8) (r : Fin 512) (o : Fin 128), y = ix3 b r o := ⟨y 0, y 1, y 2, eq_ix3 y⟩
  refine (pay1_apply (iblk0 V c 0 t) (iblk0 V c 1 t) b r o).trans ?_
  unfold prodB
  refine Finset.sum_congr rfl fun k _ => ?_
  congr 1
  · exact xtile_apply V c t _ _ h0 h1 rfl
  · exact wtile_apply V c t _ _ rfl h2

/-- Point `t`'s node-major tile at `y` is `prodN` at row `512 t + y 0`. -/
theorem tileN_apply (c : Dev nD) (t : Fin cfg0.N) (y : S512x8x128.Idx) (i : S8192x8x128.Idx)
    (h0 : (i 0).val = t.val * 512 + (y 0).val) (h1 : (i 1).val = (y 1).val) (h2 : (i 2).val = (y 2).val) :
    k0_pay2 (iblk0 V c 0 t) (iblk0 V c 1 t) y = prodN (V c main_arg0) (V c main_arg2) i := by
  obtain ⟨r, b, o, rfl⟩ : ∃ (r : Fin 512) (b : Fin 8) (o : Fin 128), y = ix3 r b o := ⟨y 0, y 1, y 2, eq_ix3 y⟩
  refine (pay2_apply (iblk0 V c 0 t) (iblk0 V c 1 t) r b o).trans ?_
  unfold prodN
  refine Finset.sum_congr rfl fun k _ => ?_
  congr 1
  · exact xtile_apply V c t _ _ h1 h0 rfl
  · exact wtile_apply V c t _ _ rfl h2

/-! ## Each write-back is the block of the whole-array function -/

/-- What point `t` writes back to the batch-major array is block `t` of `prodB`. -/
theorem flushedB_eq (c : Dev nD) (t : Fin cfg0.N) :
    (dat0 V c).flushed 2 t = ((cfg0.win 2).blk t).view.read (Elt Ideal) (prodB (V c main_arg0) (V c main_arg2)) := by
  show (cfg0.win 2).cut (grid0.coords t) ((dat0 V c).after 2 t) = _
  rw [after0_2]
  unfold out0_2
  rw [View.canon_unit_zero zeros3]
  simp only [View.ld_unit_zero (S := S8x512x128) zeros3, View.ld_unit_zero (S := S128x128) zeros2]
  obtain ⟨-, -, -, -, -, e0, e1, e2, -⟩ := index_facts t
  funext j
  refine tileB_apply V c t j (((cfg0.win 2).blk t).view.emb j) ?_ ?_ ?_
  · show win0_2.index t (0 : Fin 3) * 8 + 1 * (j 0).val = (j 0).val; omega
  · show win0_2.index t (1 : Fin 3) * 512 + 1 * (j 1).val = t.val * 512 + (j 1).val; omega
  · show win0_2.index t (2 : Fin 3) * 128 + 1 * (j 2).val = (j 2).val; omega

/-- What point `t` writes back to the node-major array is block `t` of `prodN`. -/
theorem flushedN_eq (c : Dev nD) (t : Fin cfg0.N) :
    (dat0 V c).flushed 3 t = ((cfg0.win 3).blk t).view.read (Elt Ideal) (prodN (V c main_arg0) (V c main_arg2)) := by
  show (cfg0.win 3).cut (grid0.coords t) ((dat0 V c).after 3 t) = _
  rw [after0_3]
  unfold out0_3
  rw [View.canon_unit_zero zeros3]
  simp only [View.ld_unit_zero (S := S8x512x128) zeros3, View.ld_unit_zero (S := S128x128) zeros2]
  obtain ⟨-, -, -, -, -, -, -, -, e0, e1, e2⟩ := index_facts t
  funext j
  refine tileN_apply V c t j (((cfg0.win 3).blk t).view.emb j) ?_ ?_ ?_
  · show win0_3.index t (0 : Fin 3) * 512 + 1 * (j 0).val = t.val * 512 + (j 0).val; omega
  · show win0_3.index t (1 : Fin 3) * 8 + 1 * (j 1).val = (j 1).val; omega
  · show win0_3.index t (2 : Fin 3) * 128 + 1 * (j 2).val = (j 2).val; omega

/-! ## The blocks cover the arrays -/

/-- An index of the batch-major array is in point `t`'s block iff each coordinate is in the block's range on its axis. -/
theorem mem_blkB (t : Fin cfg0.N) (i : S8x8192x128.Idx) :
    i ∈ ((cfg0.win 2).blk t).view.set ↔ ∀ a : Fin 3, win0_2.index t a * S8x512x128.size a ≤ (i a).val ∧ (i a).val < win0_2.index t a * S8x512x128.size a + S8x512x128.size a := by
  show i ∈ ((View.whole main_v0_0).slice (win0_2.rect t)).set ↔ _
  rw [View.set_slice_whole, Rect.mem_set_unit]
  exact Iff.rfl

/-- The same for the node-major array. -/
theorem mem_blkN (t : Fin cfg0.N) (i : S8192x8x128.Idx) :
    i ∈ ((cfg0.win 3).blk t).view.set ↔ ∀ a : Fin 3, win0_3.index t a * S512x8x128.size a ≤ (i a).val ∧ (i a).val < win0_3.index t a * S512x8x128.size a + S512x8x128.size a := by
  show i ∈ ((View.whole main_v0_1).slice (win0_3.rect t)).set ↔ _
  rw [View.set_slice_whole, Rect.mem_set_unit]
  exact Iff.rfl

/-- Row `s` of the batch-major array lies in the block of point `s / 512`. -/
theorem coverB (i : S8x8192x128.Idx) : ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 128 := (i 2).isLt
  obtain ⟨t, ht⟩ : ∃ t : Fin cfg0.N, t.val = (i 1).val / 512 := ⟨⟨(i 1).val / 512, by rw [show cfg0.N = 16 from N_0]; omega⟩, rfl⟩
  obtain ⟨-, -, -, -, -, e0, e1, e2, -⟩ := index_facts t
  refine ⟨t, flush0_2 t, ?_⟩
  rw [mem_blkB]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- Row `s` of the node-major array lies in the block of point `s / 512`. -/
theorem coverN (i : S8192x8x128.Idx) : ∃ t : Fin cfg0.N, (cfg0.win 3).flush t = true ∧ i ∈ ((cfg0.win 3).blk t).view.set := by
  have hi0 : (i 0).val < 8192 := (i 0).isLt
  have hi1 : (i 1).val < 8 := (i 1).isLt
  have hi2 : (i 2).val < 128 := (i 2).isLt
  obtain ⟨t, ht⟩ : ∃ t : Fin cfg0.N, t.val = (i 0).val / 512 := ⟨⟨(i 0).val / 512, by rw [show cfg0.N = 16 from N_0]; omega⟩, rfl⟩
  obtain ⟨-, -, -, -, -, -, -, -, e0, e1, e2⟩ := index_facts t
  refine ⟨t, flush0_3 t, ?_⟩
  rw [mem_blkN]
  intro a
  match a with
  | ⟨0, _⟩ => show win0_3.index t (0 : Fin 3) * 512 ≤ (i 0).val ∧ (i 0).val < win0_3.index t (0 : Fin 3) * 512 + 512; omega
  | ⟨1, _⟩ => show win0_3.index t (1 : Fin 3) * 8 ≤ (i 1).val ∧ (i 1).val < win0_3.index t (1 : Fin 3) * 8 + 8; omega
  | ⟨2, _⟩ => show win0_3.index t (2 : Fin 3) * 128 ≤ (i 2).val ∧ (i 2).val < win0_3.index t (2 : Fin 3) * 128 + 128; omega

/-! ## The two arrays after the region -/

/-- The batch-major array after the region is `x · w`. -/
theorem batch_array (c : Dev nD) : (dat0 V c).arrAt 2 cfg0.N = prodB (V c main_arg0) (V c main_arg2) :=
  (dat0 V c).arrAt_eq_of_cover 2 (prodB (V c main_arg0) (V c main_arg2)) (fun t _ => flushedB_eq V c t) coverB

/-- The node-major array after the region is `x · w` with the two leading axes exchanged. -/
theorem node_array (c : Dev nD) : (dat0 V c).arrAt 3 cfg0.N = prodN (V c main_arg0) (V c main_arg2) :=
  (dat0 V c).arrAt_eq_of_cover 3 (prodN (V c main_arg0) (V c main_arg2)) (fun t _ => flushedN_eq V c t) coverN

/-- `prodB` at `(b, s, o)`. -/
theorem prodB_apply (a0 : S8x8192x128.Idx → EReal) (a2 : S128x128.Idx → EReal) (b : Fin 8) (s : Fin 8192) (o : Fin 128) :
    prodB a0 a2 (ix3 b s o) = ∑ k : Fin 128, a0 (ix3 b s k) * a2 (ix2 k o) := rfl

/-- `prodN` at `(s, b, o)`. -/
theorem prodN_apply (a0 : S8x8192x128.Idx → EReal) (a2 : S128x128.Idx → EReal) (s : Fin 8192) (b : Fin 8) (o : Fin 128) :
    prodN a0 a2 (ix3 s b o) = ∑ k : Fin 128, a0 (ix3 b s k) * a2 (ix2 k o) := rfl

/-- The batch-major array at `(b, s, o)`: the sum over `k` of `x (b, s, k) * w (k, o)`, for `x` and `w` the two operand arrays
    as the region finds them, read as functions into the extended reals. -/
theorem batch_apply (c : Dev nD) (x : S8x8192x128.Idx → EReal) (w : S128x128.Idx → EReal)
    (hx : x = V c main_arg0) (hw : w = V c main_arg2) (b : Fin 8) (s : Fin 8192) (o : Fin 128) :
    (dat0 V c).arrAt 2 cfg0.N (ix3 b s o) = ∑ k : Fin 128, x (ix3 b s k) * w (ix2 k o) := by
  subst hx hw
  exact congrFun (batch_array V c) (ix3 b s o)

/-- The node-major array at `(s, b, o)`: the same sum. -/
theorem node_apply (c : Dev nD) (x : S8x8192x128.Idx → EReal) (w : S128x128.Idx → EReal)
    (hx : x = V c main_arg0) (hw : w = V c main_arg2) (s : Fin 8192) (b : Fin 8) (o : Fin 128) :
    (dat0 V c).arrAt 3 cfg0.N (ix3 s b o) = ∑ k : Fin 128, x (ix3 b s k) * w (ix2 k o) := by
  subst hx hw
  exact congrFun (node_array V c) (ix3 s b o)

end Cert.KernelIdeal.Product

end
-- ==== Proof.FusedPieces.lean ====
/-
  The second kernel's body as values: what each of its two control cases leaves in the output buffers, as the body's
  arithmetic of the input buffers (and, for the running total, of what the buffer held before).
-/
import proofs.«102582_j85521388798293_2_alg».proof.Proof.Gen.KernelIdeal.Frame
import Idealize.ShloMosaic.Lib.Pipeline.Value
import Idealize.ShloMosaic.Lib.Tactic

noncomputable section

namespace Cert.KernelIdeal.Fused

open Cert.KernelIdeal Cert.KernelIdeal.Gen Idealize.ShloMosaic Idealize.ShloMosaic.TcCoe Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in its two output buffers, case by case

At the first tile the body first stores the zero into the [1, 1] accumulator and reads it back; at every later tile it
reads what the tile before left there. In both cases it stores the selected tile whole and then the accumulator plus the
tile's total: each output buffer is covered by its last store, whose value reads the input buffers whole. -/

/-- Later tiles: the [8, 512, 128] output holds the selected tile. -/
theorem piece_B_3 (c : Dev nD) (i : grid1.Coords) (a1 : Memref sig .tc .vmem S8x512x128 .f32) (h1 : a1.IsWhole)
    (a2 : Memref sig .tc .vmem S512x8x128 .f32) (h2 : a2.IsWhole) (a3 : Memref sig .tc .vmem S512x1 .f32) (h3 : a3.IsWhole)
    (a4 : Memref sig .tc .vmem S8x512x128 .f32) (h4 : a4.IsWhole) (a5 : Memref sig .tc .vmem S1x1 .f32) (h5 : a5.IsWhole)
    (hc : ¬cond1_0 i) (x0 : Vec F S8x512x128 .f32) (x1 : Vec F S512x8x128 .f32) (x2 : Vec F S512x1 .f32) (xo : Vec F S1x1 .f32) :
    out1_B_3 c i a1 h1 a2 h2 a3 h3 a4 h4 a5 h5 hc x0 x1 x2 xo = k1_pay3 x0 x1 x2 := by
  unfold out1_B_3
  rw [View.read_writes_eq_canon _ _ _ (cover1_B_3 c i a1 h1 a2 h2 a3 h3 a4 h4 a5 h5 hc x0 x1 x2 xo)]
  unfold kernelRun1_B
  dsimp only
  rw [View.canon_unit_zero hz3]
  simp only [View.readAt_eq_ld, h1.read_unread, h2.read_unread, h3.read_unread, h5.read_unread,
    View.ld_unit_zero (S := S8x512x128) hz3, View.ld_unit_zero (S := S512x8x128) hz3, View.ld_unit_zero (S := S512x1) hz2,
    View.ld_unit_zero (S := S1x1) hz2]

/-- Later tiles: the accumulator holds what it held plus the tile's total. -/
theorem piece_B_4 (c : Dev nD) (i : grid1.Coords) (a1 : Memref sig .tc .vmem S8x512x128 .f32) (h1 : a1.IsWhole)
    (a2 : Memref sig .tc .vmem S512x8x128 .f32) (h2 : a2.IsWhole) (a3 : Memref sig .tc .vmem S512x1 .f32) (h3 : a3.IsWhole)
    (a4 : Memref sig .tc .vmem S8x512x128 .f32) (h4 : a4.IsWhole) (a5 : Memref sig .tc .vmem S1x1 .f32) (h5 : a5.IsWhole)
    (hc : ¬cond1_0 i) (x0 : Vec F S8x512x128 .f32) (x1 : Vec F S512x8x128 .f32) (x2 : Vec F S512x1 .f32) (xo : Vec F S1x1 .f32) :
    out1_B_4 c i a1 h1 a2 h2 a3 h3 a4 h4 a5 h5 hc x0 x1 x2 xo = k1_pay4 x0 x1 x2 xo := by
  unfold out1_B_4
  rw [View.read_writes_eq_canon _ _ _ (cover1_B_4 c i a1 h1 a2 h2 a3 h3 a4 h4 a5 h5 hc x0 x1 x2 xo)]
  unfold kernelRun1_B
  dsimp only
  rw [View.canon_unit_zero hz2]
  simp only [View.readAt_eq_ld, h1.read_unread, h2.read_unread, h3.read_unread, h5.read_unread,
    View.ld_unit_zero (S := S8x512x128) hz3, View.ld_unit_zero (S := S512x8x128) hz3, View.ld_unit_zero (S := S512x1) hz2,
    View.ld_unit_zero (S := S1x1) hz2]

/-- The first tile: the [8, 512, 128] output holds the selected tile. -/
theorem piece_A_3 (c : Dev nD) (i : grid1.Coords) (a1 : Memref sig .tc .vmem S8x512x128 .f32) (h1 : a1.IsWhole)
    (a2 : Memref sig .tc .vmem S512x8x128 .f32) (h2 : a2.IsWhole) (a3 : Memref sig .tc .vmem S512x1 .f32) (h3 : a3.IsWhole)
    (a4 : Memref sig .tc .vmem S8x512x128 .f32) (h4 : a4.IsWhole) (a5 : Memref sig .tc .vmem S1x1 .f32) (h5 : a5.IsWhole)
    (hc : cond1_0 i) (x0 : Vec F S8x512x128 .f32) (x1 : Vec F S512x8x128 .f32) (x2 : Vec F S512x1 .f32) :
    out1_A_3 c i a1 h1 a2 h2 a3 h3 a4 h4 a5 h5 hc x0 x1 x2 = k1_pay3 x0 x1 x2 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_unit_zero hz3]
  simp only [View.readAt_eq_ld, h1.read_unread, h2.read_unread, h3.read_unread, h5.read_unread,
    View.ld_unit_zero (S := S8x512x128) hz3, View.ld_unit_zero (S := S512x8x128) hz3, View.ld_unit_zero (S := S512x1) hz2,
    View.ld_unit_zero (S := S1x1) hz2]

/-- The first tile: the accumulator holds the zero it was reset to plus the tile's total. -/
theorem piece_A_4 (c : Dev nD) (i : grid1.Coords) (a1 : Memref sig .tc .vmem S8x512x128 .f32) (h1 : a1.IsWhole)
    (a2 : Memref sig .tc .vmem S512x8x128 .f32) (h2 : a2.IsWhole) (a3 : Memref sig .tc .vmem S512x1 .f32) (h3 : a3.IsWhole)
    (a4 : Memref sig .tc .vmem S8x512x128 .f32) (h4 : a4.IsWhole) (a5 : Memref sig .tc .vmem S1x1 .f32) (h5 : a5.IsWhole)
    (hc : cond1_0 i) (x0 : Vec F S8x512x128 .f32) (x1 : Vec F S512x8x128 .f32) (x2 : Vec F S512x1 .f32) :
    out1_A_4 c i a1 h1 a2 h2 a3 h3 a4 h4 a5 h5 hc x0 x1 x2 = k1_pay4 x0 x1 x2 (k1_pay1 (F := F)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x1) hz2, View.readCov_unit_zero (S := S1x1) _ hz2]
  simp only [View.readAt_eq_ld, h1.read_unread, h2.read_unread, h3.read_unread, h5.read_unread,
    View.ld_unit_zero (S := S8x512x128) hz3, View.ld_unit_zero (S := S512x8x128) hz3, View.ld_unit_zero (S := S512x1) hz2,
    View.ld_unit_zero (S := S1x1) hz2]

end Cert.KernelIdeal.Fused

end
-- ==== Proof.FusedAcc.lean ====
/-
  The second kernel over its sixteen tiles: the [1, 1] accumulator is reset at the first tile and afterwards carried from
  tile to tile, each tile adding its own total; the [8, 512, 128] output of a tile depends on that tile's blocks only.
  What the two output buffers hold after tile `n` is therefore the pair (the selected tile `n`, the running total up to `n`),
  by induction on the tile.
-/
import proofs.«102582_j85521388798293_2_alg».proof.Proof.FusedPieces

noncomputable section

namespace Cert.KernelIdeal.Fused

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The running total after tile `n`: from the zero the first tile stores, each tile's payload applied in turn. -/
def acc (c : Dev nD) : (n : ℕ) → n < cfg1.N → Vec F S1x1 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩) (acc c n (Nat.lt_of_succ_lt h))

/-- After tile `n` the outputs hold the selected tile `n` and the running total. -/
theorem outsAt_eq (c : Dev nD) : ∀ (n : ℕ) (h : n < cfg1.N),
    outsAt1 V c n h = (k1_pay3 (iblk1 V c 0 ⟨n, h⟩) (iblk1 V c 1 ⟨n, h⟩) (iblk1 V c 2 ⟨n, h⟩), acc V c n h)
  | 0, h => (outsAt1_A V c ⟨0, h⟩ rfl).trans (by rw [piece_A_3, piece_A_4]; rfl)
  | n + 1, h => by
    have hN : cfg1.N = 16 := N_1
    have hB : ¬(⟨n + 1, h⟩ : Fin cfg1.N).val % 16 = 0 := by dsimp only; omega
    rw [outsAt1_B V c ⟨n + 1, h⟩ hB, piece_B_3, piece_B_4]
    show (_, k1_pay4 _ _ _ (outsAt1 V c n _).2) = (_, k1_pay4 _ _ _ (acc V c n _))
    rw [outsAt_eq c n]

end Cert.KernelIdeal.Fused

end
-- ==== Proof.FusedPayload.lean ====
/-
  The second kernel's arithmetic, read at an index on the extended reals.

  A tile holds 512 nodes. From the tile of the product `xt` (laid [8, 512, 128]), the tile of the replacement rows (laid
  [512, 8, 128]) and the tile of the validity column (laid [512, 1], entries 0 or 1 as floats) the kernel forms

      agg (b, s, f) = if valid s > 1/2 then repl (s, b, f) else xt (b, s, f)

  and adds to a running [1, 1] accumulator the tile's total  ∑ b, ∑ s, ∑ f, |agg (b, s, f) − xt (b, s, f)|,  taken as three
  nested one-axis sums (lanes, then nodes, then batch), each from the zero word, with unit axes inserted in between.
-/
import proofs.«102582_j85521388798293_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Fused

open Cert.KernelIdeal Cert.KernelIdeal.Gen Idealize.ShloMosaic Idealize.ShloMosaic.ValueIdx
open Facts₀ Facts

variable {α : Type}

/-! ## The layout operations of the body, read at an index -/

/-- The validity column [512, 1] viewed [1, 512, 1]: entry (0, s, 0) is entry (s, 0). -/
theorem cast_col (x : S512x1.Idx → α) (h : S512x1.ShapeCasts S1x512x1) (s : Fin 512) :
    shapeCast S1x512x1 x h (ix3 (0 : Fin 1) s (0 : Fin 1)) = x (ix2 s (0 : Fin 1)) :=
  shapeCast_apply x h _ _ (by
    rw [Shape.rowMajor_val_two, Shape.rowMajor_val_three]
    show s.val * 1 + 0 = (0 * 512 + s.val) * 1 + 0
    omega)

/-- That view repeated over the batch and the lanes: entry (b, s, f) is entry (0, s, 0). -/
theorem bcast_col (x : S1x512x1.Idx → α) (h : S1x512x1.Broadcasts S8x512x128) (b : Fin 8) (s : Fin 512) (f : Fin 128) :
    broadcastTo S8x512x128 x h (ix3 b s f) = x (ix3 (0 : Fin 1) s (0 : Fin 1)) :=
  broadcastTo_apply x h _ _ (fun a => match a with
    | ⟨0, _⟩ => by show 0 = if (1 : Nat) = 1 then 0 else _; rw [if_pos rfl]
    | ⟨1, _⟩ => by show s.val = if (512 : Nat) = 1 then 0 else s.val; rw [if_neg (by decide)]
    | ⟨2, _⟩ => by show 0 = if (1 : Nat) = 1 then 0 else _; rw [if_pos rfl])

/-- The node-major tile [512, 8, 128] with its two leading axes swapped: entry (b, s, f) is entry (s, b, f). -/
theorem swap_tile (x : S512x8x128.Idx → α) (h : S512x8x128.Transposes [1, 0, 2] S8x512x128) (b : Fin 8) (s : Fin 512) (f : Fin 128) :
    transpose S8x512x128 [1, 0, 2] x h (ix3 b s f) = x (ix3 s b f) :=
  transpose_apply [1, 0, 2] x h _ _ (fun a => match a with
    | ⟨0, _⟩ => rfl
    | ⟨1, _⟩ => rfl
    | ⟨2, _⟩ => rfl)

/-- [8, 512] viewed [8, 512, 1]. -/
theorem cast_lanes (x : S8x512.Idx → α) (h : S8x512.ShapeCasts S8x512x1) (b : Fin 8) (s : Fin 512) :
    shapeCast S8x512x1 x h (ix3 b s (0 : Fin 1)) = x (ix2 b s) :=
  shapeCast_apply x h _ _ (by
    rw [Shape.rowMajor_val_two, Shape.rowMajor_val_three]
    show b.val * 512 + s.val = (b.val * 512 + s.val) * 1 + 0
    omega)

/-- [8, 1] viewed [8, 1, 1]. -/
theorem cast_nodes (x : S8x1.Idx → α) (h : S8x1.ShapeCasts S8x1x1) (b : Fin 8) :
    shapeCast S8x1x1 x h (ix3 b (0 : Fin 1) (0 : Fin 1)) = x (ix2 b (0 : Fin 1)) :=
  shapeCast_apply x h _ _ (by
    rw [Shape.rowMajor_val_two, Shape.rowMajor_val_three]
    show b.val * 1 + 0 = (b.val * 1 + 0) * 1 + 0
    omega)

/-- [1, 1] viewed [1, 1, 1], -/
theorem cast_up (x : S1x1.Idx → α) (h : S1x1.ShapeCasts S1x1x1) :
    shapeCast S1x1x1 x h (ix3 (0 : Fin 1) (0 : Fin 1) (0 : Fin 1)) = x (ix2 (0 : Fin 1) (0 : Fin 1)) :=
  shapeCast_apply x h _ _ (by
    rw [Shape.rowMajor_val_two, Shape.rowMajor_val_three]
    show 0 * 1 + 0 = (0 * 1 + 0) * 1 + 0
    omega)

/-- and back. -/
theorem cast_down (x : S1x1x1.Idx → α) (h : S1x1x1.ShapeCasts S1x1) :
    shapeCast S1x1 x h (ix2 (0 : Fin 1) (0 : Fin 1)) = x (ix3 (0 : Fin 1) (0 : Fin 1) (0 : Fin 1)) :=
  shapeCast_apply x h _ _ (by
    rw [Shape.rowMajor_val_two, Shape.rowMajor_val_three]
    show (0 * 1 + 0) * 1 + 0 = 0 * 1 + 0
    omega)

/-- A sum over ONE axis from the zero word, on the extended reals: the sum over that axis's coordinates. -/
theorem sum_axis {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-! ## The two payloads -/

/-- The selected tile at (b, s, f). -/
theorem pay3_apply (v3 : Vec Ideal S8x512x128 .f32) (v5 : Vec Ideal S512x8x128 .f32) (v8 : Vec Ideal S512x1 .f32)
    (b : Fin 8) (s : Fin 512) (f : Fin 128) :
    k1_pay3 (F := Ideal) v3 v5 v8 (ix3 b s f)
      = Scalar.select (Ideal.cmp .ogt (v8 (ix2 s (0 : Fin 1))) (Ideal.ofBits .f32 0x3F000000#32)) (v5 (ix3 s b f)) (v3 (ix3 b s f)) := by
  unfold k1_pay3 k1_pay2
  dsimp only
  rw [select_apply, cmpf_apply, broadcast_apply, bcast_col, swap_tile]
  simp only [shapeCast_self]
  rw [cast_col]
  rfl

/-- The accumulator's one entry after a tile: the entry before it plus the tile's total of |agg − xt|. -/
theorem pay4_apply (v3 : Vec Ideal S8x512x128 .f32) (v5 : Vec Ideal S512x8x128 .f32) (v8 : Vec Ideal S512x1 .f32)
    (v25 : Vec Ideal S1x1 .f32) :
    k1_pay4 (F := Ideal) v3 v5 v8 v25 (ix2 (0 : Fin 1) (0 : Fin 1))
      = v25 (ix2 (0 : Fin 1) (0 : Fin 1))
        + ∑ b : Fin 8, ∑ s : Fin 512, ∑ f : Fin 128,
            FloatOps.absf (FloatOps.subf (k1_pay3 (F := Ideal) v3 v5 v8 (ix3 b s f)) (v3 (ix3 b s f))) := by
  unfold k1_pay4 k1_pay2
  dsimp only
  rw [addf_apply]
  simp only [shapeCast_self]
  rw [cast_down, cast_up, sum_axis]
  refine congrArg (v25 (ix2 (0 : Fin 1) (0 : Fin 1)) + ·) ?_
  refine Finset.sum_congr rfl fun (b : Fin 8) _ => ?_
  rw [show (Gen.reduces_S8x1x1_S1x1.lift (ix2 (0 : Fin 1) (0 : Fin 1)) b : S8x1x1.Idx) = ix3 b (0 : Fin 1) (0 : Fin 1) from
    funext fun a => match a with | ⟨0, _⟩ => rfl | ⟨1, _⟩ => rfl | ⟨2, _⟩ => rfl]
  rw [cast_nodes, sum_axis]
  refine Finset.sum_congr rfl fun (s : Fin 512) _ => ?_
  rw [show (Gen.reduces_S8x512x1_S8x1.lift (ix2 b (0 : Fin 1)) s : S8x512x1.Idx) = ix3 b s (0 : Fin 1) from
    funext fun a => match a with | ⟨0, _⟩ => rfl | ⟨1, _⟩ => rfl | ⟨2, _⟩ => rfl]
  rw [cast_lanes, sum_axis]
  refine Finset.sum_congr rfl fun (f : Fin 128) _ => ?_
  rw [show (Gen.reduces_S8x512x128_S8x512.lift (ix2 b s) f : S8x512x128.Idx) = ix3 b s f from
    funext fun a => match a with | ⟨0, _⟩ => rfl | ⟨1, _⟩ => rfl | ⟨2, _⟩ => rfl]
  rfl

end Cert.KernelIdeal.Fused

end
-- ==== Proof.FusedTotal.lean ====
/-
  The [1, 1] accumulator of the second kernel. Its block never moves, so it is written back once, after the last of the
  sixteen tiles, and the array it leaves is the running total after tile 15. On the extended reals that total is the sum over
  the tiles of each tile's total of |agg − xt|: the first tile adds its total to the zero it has just stored, each later
  tile to what the tile before left.
-/
import proofs.«102582_j85521388798293_2_alg».proof.Proof.FusedAcc
import proofs.«102582_j85521388798293_2_alg».proof.Proof.FusedPayload

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

section AnyValues

variable {F : FTy → Type} [FloatOps F]
variable (V : (c : Dev nD) → (b : Ref sig .tc) → Buf (Elt F) ((c : Thread nD τ).loc b))

/-- The running total after the last tile. -/
abbrev total (c : Dev nD) : Vec F S1x1 .f32 := acc V c 15 (by rw [show cfg1.N = 16 from N_1]; decide)

/-- The one write-back of the accumulator, at the last tile, writes the total: its block is the whole [1, 1] array. -/
theorem flushed4_eq (c : Dev nD) (t : Fin cfg1.N) (hf : (cfg1.win 4).flush t = true) :
    (dat1 V c).flushed 4 t = ((cfg1.win 4).blk t).view.read (Elt F) (total V c) := by
  have hN : cfg1.N = 16 := N_1
  have h15 : t.val = 15 := by have := (flush1_4 t).mp hf; have := t.isLt; omega
  obtain rfl : t = t1_15 := Fin.ext h15
  show (cfg1.win 4).cut (grid1.coords t1_15) ((dat1 V c).after 4 t1_15) = _
  rw [after1_4, outsAt_eq]
  have hz' : (fun a => win1_4.index t1_15 a * main_v50_1.ty.shape.size a) = fun _ => 0 := funext fun a => by fin_cases a <;> decide
  exact (Memref.read_access_unit_zero (Elt F) main_v50_1 hz' (fun a => by rw [congrFun hz' a]; simp) (total V c)).symm

/-- So the accumulator's array ends holding the total. -/
theorem final4 (c : Dev nD) : (dat1 V c).arrAt 4 cfg1.N = total V c :=
  (dat1 V c).arrAt_eq_of_cover 4 (total V c) (flushed4_eq V c) fun i =>
    ⟨t1_15, (flush1_4 t1_15).mpr rfl, by
      show i ∈ ((View.whole main_v50_1).slice (win1_4.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_4.index t1_15 0 * win1_4.size 0 ≤ (i 0 : Nat) ∧ (i 0 : Nat) < win1_4.index t1_15 0 * win1_4.size 0 + win1_4.xsize (grid1.coords t1_15) 0
                  rw [show win1_4.index t1_15 0 * win1_4.size 0 = 0 from by decide +kernel, show win1_4.xsize (grid1.coords t1_15) 0 = 1 from by decide +kernel]; omega
      | ⟨1, _⟩ => show win1_4.index t1_15 1 * win1_4.size 1 ≤ (i 1 : Nat) ∧ (i 1 : Nat) < win1_4.index t1_15 1 * win1_4.size 1 + win1_4.xsize (grid1.coords t1_15) 1
                  rw [show win1_4.index t1_15 1 * win1_4.size 1 = 0 from by decide +kernel, show win1_4.xsize (grid1.coords t1_15) 1 = 1 from by decide +kernel]; omega⟩

end AnyValues

section ExtendedReals

variable (V : (c : Dev nD) → (b : Ref sig .tc) → Buf (Elt Ideal) ((c : Thread nD τ).loc b))

/-- One tile's total of |agg − xt|, over the tile's own blocks. -/
def tileTotal (c : Dev nD) (t : Fin cfg1.N) : EReal :=
  ∑ b : Fin 8, ∑ s : Fin 512, ∑ f : Fin 128,
    FloatOps.absf (FloatOps.subf (k1_pay3 (F := Ideal) (iblk1 V c 0 t) (iblk1 V c 1 t) (iblk1 V c 2 t) (ix3 b s f))
      ((iblk1 V c 0 t : Vec Ideal S8x512x128 .f32) (ix3 b s f)))

/-- The running total after tile `n` is the sum of the totals of tiles 0 … n. -/
theorem acc_apply (c : Dev nD) : ∀ (n : ℕ) (h : n < cfg1.N),
    acc V c n h (ix2 (0 : Fin 1) (0 : Fin 1))
      = ∑ k ∈ Finset.range (n + 1), if hk : k < cfg1.N then tileTotal V c ⟨k, hk⟩ else 0
  | 0, h => by
    refine (pay4_apply (iblk1 V c 0 ⟨0, h⟩) (iblk1 V c 1 ⟨0, h⟩) (iblk1 V c 2 ⟨0, h⟩) (k1_pay1 (F := Ideal))).trans ?_
    rw [Finset.sum_range_one, dif_pos h]
    show Ideal.ofBits .f32 0x00000000#32 + _ = _
    rw [Ideal.ofBits_zero_f32, zero_add]
    rfl
  | n + 1, h => by
    refine (pay4_apply (iblk1 V c 0 ⟨n + 1, h⟩) (iblk1 V c 1 ⟨n + 1, h⟩) (iblk1 V c 2 ⟨n + 1, h⟩) (acc V c n (Nat.lt_of_succ_lt h))).trans ?_
    rw [acc_apply c n, Finset.sum_range_succ _ (n + 1), dif_pos h]
    rfl

/-- The total is the sum of the sixteen tile totals. -/
theorem total_apply (c : Dev nD) :
    total V c (ix2 (0 : Fin 1) (0 : Fin 1))
      = ∑ t : Fin 16, tileTotal V c ⟨t.val, lt_of_lt_of_eq t.isLt (show cfg1.N = 16 from N_1).symm⟩ := by
  rw [show total V c = acc V c 15 _ from rfl, acc_apply, Finset.sum_range]
  exact Finset.sum_congr rfl fun t _ => dif_pos _

end ExtendedReals

end Cert.KernelIdeal.Fused

end
-- ==== Proof.Select.lean ====
/-
  The aggregation as one function of whole arrays, on the extended reals. With `xt` the product laid [8, 8192, 128]
  (batch, node, lane), `repl` the replacement rows laid [8192, 8, 128] (node, batch, lane) and `vf` the validity column
  laid [8192, 1] (0 or 1 as floats):

      agg (b, n, f) = if vf (n, 0) > 1/2 then repl (n, b, f) else xt (b, n, f)

  and the summand of the loss is  |agg (b, n, f) − xt (b, n, f)|.
-/
import Idealize.ShloMosaic.PureOps.Ideal
import Idealize.ShloMosaic.Lib.ValueIdx

noncomputable section

namespace Cert.KernelIdeal.Select

open Idealize.ShloMosaic Idealize.ShloMosaic.ValueIdx

/-- The aggregated value at batch `b`, node `n`, lane `f`. -/
def aggAt (xt : (⟨3, ![8, 8192, 128]⟩ : Shape).Idx → EReal) (repl : (⟨3, ![8192, 8, 128]⟩ : Shape).Idx → EReal)
    (vf : (⟨2, ![8192, 1]⟩ : Shape).Idx → EReal) (b : Fin 8) (n : Fin 8192) (f : Fin 128) : EReal :=
  Scalar.select (Ideal.cmp .ogt (vf (ix2 n (0 : Fin 1))) (Ideal.ofBits .f32 0x3F000000#32)) (repl (ix3 n b f)) (xt (ix3 b n f))

/-- The aggregated array. -/
def aggOf (xt : (⟨3, ![8, 8192, 128]⟩ : Shape).Idx → EReal) (repl : (⟨3, ![8192, 8, 128]⟩ : Shape).Idx → EReal)
    (vf : (⟨2, ![8192, 1]⟩ : Shape).Idx → EReal) : (⟨3, ![8, 8192, 128]⟩ : Shape).Idx → EReal :=
  fun j => aggAt xt repl vf ⟨(j 0).val, (j 0).isLt⟩ ⟨(j 1).val, (j 1).isLt⟩ ⟨(j 2).val, (j 2).isLt⟩

theorem aggOf_apply (xt : (⟨3, ![8, 8192, 128]⟩ : Shape).Idx → EReal) (repl : (⟨3, ![8192, 8, 128]⟩ : Shape).Idx → EReal)
    (vf : (⟨2, ![8192, 1]⟩ : Shape).Idx → EReal) (b : Fin 8) (n : Fin 8192) (f : Fin 128) :
    aggOf xt repl vf (ix3 b n f) = aggAt xt repl vf b n f := rfl

/-- The loss's summand at batch `b`, node `n`, lane `f`. -/
def devAt (xt : (⟨3, ![8, 8192, 128]⟩ : Shape).Idx → EReal) (repl : (⟨3, ![8192, 8, 128]⟩ : Shape).Idx → EReal)
    (vf : (⟨2, ![8192, 1]⟩ : Shape).Idx → EReal) (b : Fin 8) (n : Fin 8192) (f : Fin 128) : EReal :=
  FloatOps.absf (F := Ideal) (φ := .f32) (FloatOps.subf (F := Ideal) (φ := .f32) (aggAt xt repl vf b n f) (xt (ix3 b n f)))

end Cert.KernelIdeal.Select

end
-- ==== Proof.LibSumIdx3.lean ====
/-
  A sum over a rank-3 index set as a triple sum. An index of a rank-3 array is its three coordinates, so in any commutative
  monoid the sum over the indices is the sum over the first coordinate of the sum over the second of the sum over the third —
  the rank-3 companion of the library's rank-2 `ValueIdx.sum_idx2`, for any three extents.
-/
import Idealize.ShloMosaic.Lib.ValueIdx

noncomputable section

namespace LibSumIdx3

open Idealize.ShloMosaic Idealize.ShloMosaic.ValueIdx

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates: `∑ i, f i = ∑ a, ∑ b, ∑ c, f (ix3 a b c)`. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end LibSumIdx3

end
-- ==== Proof.TileSum.lean ====
/-
  Regrouping a sum over an [8, 8192, 128] array. An index of the array is its three coordinates, the 8192 nodes are 16
  tiles of 512 consecutive nodes (node 512·t + s is node s of tile t), and sums over finite index sets in a commutative
  monoid may be taken in any order: the sum over every index is the sum over the tiles of each tile's sum over batch,
  node within the tile, and lane.
-/
import proofs.«102582_j85521388798293_2_alg».proof.Proof.LibSumIdx3
import Idealize.ShloMosaic.Lib.ValueIdx

noncomputable section

namespace Cert.KernelIdeal.TileSum

open Idealize.ShloMosaic Idealize.ShloMosaic.ValueIdx

/-- Node `s` of tile `t`. -/
def node (t : Fin 16) (s : Fin 512) : Fin 8192 :=
  ⟨512 * t.val + s.val, by have := t.isLt; have := s.isLt; omega⟩

/-- The nodes are the pairs (tile, node within the tile). -/
def nodeEquiv : Fin 16 × Fin 512 ≃ Fin 8192 := finProdFinEquiv.trans (finCongr (by norm_num))

theorem nodeEquiv_apply (t : Fin 16) (s : Fin 512) : nodeEquiv (t, s) = node t s :=
  Fin.ext (by simp [nodeEquiv, node, finProdFinEquiv]; omega)

/-- A sum over the nodes, tile by tile. -/
theorem sum_nodes {M : Type*} [AddCommMonoid M] (g : Fin 8192 → M) :
    ∑ n, g n = ∑ t : Fin 16, ∑ s : Fin 512, g (node t s) := by
  rw [← Equiv.sum_comp nodeEquiv g, Fintype.sum_prod_type]
  simp only [nodeEquiv_apply]

/-- The sum over every index of the array is the sum over the tiles of the tile's triple sum. -/
theorem sum_tiles {M : Type*} [AddCommMonoid M] (D : Fin 8 → Fin 8192 → Fin 128 → M) :
    ∑ j : (⟨3, ![8, 8192, 128]⟩ : Shape).Idx, D ⟨(j 0).val, (j 0).isLt⟩ ⟨(j 1).val, (j 1).isLt⟩ ⟨(j 2).val, (j 2).isLt⟩
      = ∑ t : Fin 16, ∑ b : Fin 8, ∑ s : Fin 512, ∑ f : Fin 128, D b (node t s) f := by
  rw [LibSumIdx3.sum_idx3]
  calc ∑ b : Fin 8, ∑ n : Fin 8192, ∑ f : Fin 128, D b n f
      = ∑ b : Fin 8, ∑ t : Fin 16, ∑ s : Fin 512, ∑ f : Fin 128, D b (node t s) f :=
        Finset.sum_congr rfl fun b _ => sum_nodes _
    _ = _ := Finset.sum_comm

end Cert.KernelIdeal.TileSum

end
-- ==== Proof.FusedArray.lean ====
/-
  The second region's selected array, index by index.

  The region walks the 8192 nodes in 16 tiles of 512. At tile `t` it reads rows `512 t …` of the product `xt` (laid
  [8, 8192, 128]), of the replacement rows `repl` (laid [8192, 8, 128]) and of the validity column `vf` (laid [8192, 1]),
  and writes rows `512 t …` of the selected array: at `(b, n, f)` the replacement row where the node's validity exceeds
  one half, the product elsewhere. Here: each tile as rows of its array, the selected tile as rows of the selected array,
  each write-back as the block of ONE whole-array function, the blocks covering the array, and so the array after the
  region.
-/
import proofs.«102582_j85521388798293_2_alg».proof.Proof.Gen.KernelIdeal.Frame
import proofs.«102582_j85521388798293_2_alg».proof.Proof.FusedAcc
import proofs.«102582_j85521388798293_2_alg».proof.Proof.FusedPayload
import proofs.«102582_j85521388798293_2_alg».proof.Proof.Select
import proofs.«102582_j85521388798293_2_alg».proof.Proof.TileSum
import Idealize.ShloMosaic.Lib.ValueIdx
import Idealize.ShloMosaic.Lib.Pipeline.Value

noncomputable section

namespace Cert.KernelIdeal.Fused

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The tiles the points read -/

/-- The windows' index maps at each of the 16 grid points: point `t` reads rows `512 t …` of the product (its axis 1), of
    the replacement rows and of the validity column (their axis 0), and writes rows `512 t …` of the selected array (its
    axis 1). -/
theorem tile_index : ∀ t : Fin cfg1.N,
    win1_0.index t (0 : Fin 3) = 0 ∧ win1_0.index t (1 : Fin 3) = t.val ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- The tile of the product at point `t`: entry `(b, s, f)` is the product at node `512 t + s`. -/
theorem tile_xt (c : Dev nD) (xt : S8x8192x128.Idx → EReal) (hxt : xt = V c main_v0_0)
    (t : Fin cfg1.N) (t' : Fin 16) (ht : t'.val = t.val) (b : Fin 8) (s : Fin 512) (f : Fin 128) :
    (iblk1 V c 0 t : Vec Ideal S8x512x128 .f32) (ix3 b s f) = xt (ix3 b (TileSum.node t' s) f) := by
  subst hxt
  obtain ⟨e0, e1, e2, -⟩ := tile_index t
  unfold iblk1
  rw [View.read_apply]
  show V c main_v0_0 _ = V c main_v0_0 _
  congr 1
  funext a
  apply Fin.ext
  match a with
  | ⟨0, _⟩ => show win1_0.index t (0 : Fin 3) * 8 + 1 * b.val = b.val; omega
  | ⟨1, _⟩ => show win1_0.index t (1 : Fin 3) * 512 + 1 * s.val = 512 * t'.val + s.val; omega
  | ⟨2, _⟩ => show win1_0.index t (2 : Fin 3) * 128 + 1 * f.val = f.val; omega

/-- The tile of the replacement rows at point `t`: entry `(s, b, f)` is the row of node `512 t + s`. -/
theorem tile_repl (c : Dev nD) (repl : S8192x8x128.Idx → EReal) (hrepl : repl = V c main_v47)
    (t : Fin cfg1.N) (t' : Fin 16) (ht : t'.val = t.val) (b : Fin 8) (s : Fin 512) (f : Fin 128) :
    (iblk1 V c 1 t : Vec Ideal S512x8x128 .f32) (ix3 s b f) = repl (ix3 (TileSum.node t' s) b f) := by
  subst hrepl
  obtain ⟨-, -, -, e0, e1, e2, -⟩ := tile_index t
  unfold iblk1
  rw [View.read_apply]
  show V c main_v47 _ = V c main_v47 _
  congr 1
  funext a
  apply Fin.ext
  match a with
  | ⟨0, _⟩ => show win1_1.index t (0 : Fin 3) * 512 + 1 * s.val = 512 * t'.val + s.val; omega
  | ⟨1, _⟩ => show win1_1.index t (1 : Fin 3) * 8 + 1 * b.val = b.val; omega
  | ⟨2, _⟩ => show win1_1.index t (2 : Fin 3) * 128 + 1 * f.val = f.val; omega

/-- The tile of the validity column at point `t`: entry `(s, 0)` is the validity of node `512 t + s`. -/
theorem tile_valid (c : Dev nD) (vf : S8192x1.Idx → EReal) (hvf : vf = V c main_v49)
    (t : Fin cfg1.N) (t' : Fin 16) (ht : t'.val = t.val) (s : Fin 512) :
    (iblk1 V c 2 t : Vec Ideal S512x1 .f32) (ix2 s (0 : Fin 1)) = vf (ix2 (TileSum.node t' s) (0 : Fin 1)) := by
  subst hvf
  obtain ⟨-, -, -, -, -, -, e0, e1, -⟩ := tile_index t
  unfold iblk1
  rw [View.read_apply]
  show V c main_v49 _ = V c main_v49 _
  congr 1
  funext a
  apply Fin.ext
  match a with
  | ⟨0, _⟩ => show win1_2.index t (0 : Fin 2) * 512 + 1 * s.val = 512 * t'.val + s.val; omega
  | ⟨1, _⟩ => show win1_2.index t (1 : Fin 2) * 1 + 1 * 0 = 0; omega

/-! ## The selected tile -/

/-- The selected tile at point `t`: entry `(b, s, f)` is the selected value at node `512 t + s`. -/
theorem tile_sel (c : Dev nD) (xt : S8x8192x128.Idx → EReal) (repl : S8192x8x128.Idx → EReal) (vf : S8192x1.Idx → EReal)
    (hxt : xt = V c main_v0_0) (hrepl : repl = V c main_v47) (hvf : vf = V c main_v49)
    (t : Fin cfg1.N) (t' : Fin 16) (ht : t'.val = t.val) (b : Fin 8) (s : Fin 512) (f : Fin 128) :
    k1_pay3 (F := Ideal) (iblk1 V c 0 t) (iblk1 V c 1 t) (iblk1 V c 2 t) (ix3 b s f)
      = Select.aggAt xt repl vf b (TileSum.node t' s) f := by
  refine (pay3_apply (iblk1 V c 0 t) (iblk1 V c 1 t) (iblk1 V c 2 t) b s f).trans ?_
  unfold Select.aggAt
  rw [tile_xt V c xt hxt t t' ht b s f, tile_repl V c repl hrepl t t' ht b s f, tile_valid V c vf hvf t t' ht s]

/-! ## Each write-back is the block of the selected array -/

/-- Point `t`'s selected tile at `y` is the selected array at row `512 t + y 1`. -/
theorem tile_agg (c : Dev nD) (t : Fin cfg1.N) (y : S8x512x128.Idx) (i : S8x8192x128.Idx)
    (h0 : (i 0).val = (y 0).val) (h1 : (i 1).val = t.val * 512 + (y 1).val) (h2 : (i 2).val = (y 2).val) :
    k1_pay3 (F := Ideal) (iblk1 V c 0 t) (iblk1 V c 1 t) (iblk1 V c 2 t) y
      = Select.aggOf (V c main_v0_0) (V c main_v47) (V c main_v49) i := by
  obtain ⟨b, s, f, rfl⟩ : ∃ (b : Fin 8) (s : Fin 512) (f : Fin 128), y = ix3 b s f := ⟨y 0, y 1, y 2, eq_ix3 y⟩
  have hN : t.val < 16 := lt_of_lt_of_eq t.isLt (show cfg1.N = 16 from N_1)
  refine (tile_sel V c _ _ _ rfl rfl rfl t ⟨t.val, hN⟩ rfl b s f).trans ?_
  have hb : b = ⟨(i 0).val, (i 0).isLt⟩ := Fin.ext h0.symm
  have hn : TileSum.node ⟨t.val, hN⟩ s = ⟨(i 1).val, (i 1).isLt⟩ :=
    Fin.ext (by show 512 * t.val + s.val = (i 1).val; rw [h1]; show 512 * t.val + s.val = t.val * 512 + s.val; omega)
  have hf : f = ⟨(i 2).val, (i 2).isLt⟩ := Fin.ext h2.symm
  show Select.aggAt _ _ _ b (TileSum.node ⟨t.val, hN⟩ s) f = Select.aggAt _ _ _ ⟨(i 0).val, _⟩ ⟨(i 1).val, _⟩ ⟨(i 2).val, _⟩
  rw [hn, ← hb, ← hf]

/-- What point `t` writes back to the selected array is block `t` of the one whole-array function. -/
theorem flushed_agg (c : Dev nD) (t : Fin cfg1.N) :
    (dat1 V c).flushed 3 t
      = ((cfg1.win 3).blk t).view.read (Elt Ideal) (Select.aggOf (V c main_v0_0) (V c main_v47) (V c main_v49)) := by
  show (cfg1.win 3).cut (grid1.coords t) ((dat1 V c).after 3 t) = _
  rw [after1_3, congrArg Prod.fst (outsAt_eq V c t.val t.isLt)]
  obtain ⟨-, -, -, -, -, -, -, -, e0, e1, e2⟩ := tile_index t
  funext j
  refine tile_agg V c t j (((cfg1.win 3).blk t).view.emb j) ?_ ?_ ?_
  · show win1_3.index t (0 : Fin 3) * 8 + 1 * (j 0).val = (j 0).val; omega
  · show win1_3.index t (1 : Fin 3) * 512 + 1 * (j 1).val = t.val * 512 + (j 1).val; omega
  · show win1_3.index t (2 : Fin 3) * 128 + 1 * (j 2).val = (j 2).val; omega

/-! ## The blocks cover the array -/

/-- An index of the selected array is in point `t`'s block iff each coordinate is in the block's range on its axis. -/
theorem mem_blk_agg (t : Fin cfg1.N) (i : S8x8192x128.Idx) :
    i ∈ ((cfg1.win 3).blk t).view.set ↔ ∀ a : Fin 3, win1_3.index t a * S8x512x128.size a ≤ (i a).val ∧ (i a).val < win1_3.index t a * S8x512x128.size a + S8x512x128.size a := by
  show i ∈ ((View.whole main_v50_0).slice (win1_3.rect t)).set ↔ _
  rw [View.set_slice_whole, Rect.mem_set_unit]
  exact Iff.rfl

/-- Node `n` of the selected array lies in the block of point `n / 512`, and every point writes its block back. -/
theorem cover_agg (i : S8x8192x128.Idx) : ∃ t : Fin cfg1.N, (cfg1.win 3).flush t = true ∧ i ∈ ((cfg1.win 3).blk t).view.set := by
  have hi0 : (i 0).val < 8 := (i 0).isLt
  have hi1 : (i 1).val < 8192 := (i 1).isLt
  have hi2 : (i 2).val < 128 := (i 2).isLt
  obtain ⟨t, ht⟩ : ∃ t : Fin cfg1.N, t.val = (i 1).val / 512 := ⟨⟨(i 1).val / 512, by rw [show cfg1.N = 16 from N_1]; omega⟩, rfl⟩
  obtain ⟨-, -, -, -, -, -, -, -, e0, e1, e2⟩ := tile_index t
  refine ⟨t, flush1_3 t, ?_⟩
  rw [mem_blk_agg]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-! ## The array after the region -/

/-- The selected array after the region: at `(b, n, f)` the replacement row of node `n` where its validity exceeds one half,
    the product elsewhere. -/
theorem agg_array (c : Dev nD) :
    (dat1 V c).arrAt 3 cfg1.N = Select.aggOf (V c main_v0_0) (V c main_v47) (V c main_v49) :=
  (dat1 V c).arrAt_eq_of_cover 3 (Select.aggOf (V c main_v0_0) (V c main_v47) (V c main_v49))
    (fun t _ => flushed_agg V c t) cover_agg

end Cert.KernelIdeal.Fused

end
-- ==== Proof.LossSum.lean ====
/-
  The second kernel's total as one sum over the whole array. A tile's blocks are restrictions of the three whole arrays
  (node s of tile t is node 512·t + s), so a tile's total of |agg − xt| is a sum of the whole-array summand over that tile's
  indices, and the sixteen tile totals together are the sum of that summand over every index of the [8, 8192, 128] array.
-/
import proofs.«102582_j85521388798293_2_alg».proof.Proof.FusedTotal
import proofs.«102582_j85521388798293_2_alg».proof.Proof.FusedArray

noncomputable section

namespace Cert.KernelIdeal.Fused

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- Tile `t`'s total, over the whole arrays. -/
theorem tileTotal_eq (c : Dev nD) (xt : S8x8192x128.Idx → EReal) (repl : S8192x8x128.Idx → EReal) (vf : S8192x1.Idx → EReal)
    (hxt : xt = V c main_v0_0) (hrepl : repl = V c main_v47) (hvf : vf = V c main_v49) (t : Fin 16) :
    tileTotal V c ⟨t.val, lt_of_lt_of_eq t.isLt (show cfg1.N = 16 from N_1).symm⟩
      = ∑ b : Fin 8, ∑ s : Fin 512, ∑ f : Fin 128, Select.devAt xt repl vf b (TileSum.node t s) f := by
  unfold tileTotal
  refine Finset.sum_congr rfl fun b _ => Finset.sum_congr rfl fun s _ => Finset.sum_congr rfl fun f _ => ?_
  rw [tile_sel V c xt repl vf hxt hrepl hvf ⟨t.val, lt_of_lt_of_eq t.isLt (show cfg1.N = 16 from N_1).symm⟩ t rfl b s f,
    tile_xt V c xt hxt ⟨t.val, lt_of_lt_of_eq t.isLt (show cfg1.N = 16 from N_1).symm⟩ t rfl b s f]
  rfl

/-- The accumulator's final entry: the sum over every index of the array of |agg − xt|. -/
theorem total_eq (c : Dev nD) (xt : S8x8192x128.Idx → EReal) (repl : S8192x8x128.Idx → EReal) (vf : S8192x1.Idx → EReal)
    (hxt : xt = V c main_v0_0) (hrepl : repl = V c main_v47) (hvf : vf = V c main_v49) :
    total V c (ix2 (0 : Fin 1) (0 : Fin 1))
      = ∑ j : S8x8192x128.Idx, Select.devAt xt repl vf ⟨(j 0).val, (j 0).isLt⟩ ⟨(j 1).val, (j 1).isLt⟩ ⟨(j 2).val, (j 2).isLt⟩ := by
  rw [total_apply]
  refine Eq.trans ?_ (TileSum.sum_tiles (Select.devAt xt repl vf)).symm
  exact Finset.sum_congr rfl fun t _ => tileTotal_eq V c xt repl vf hxt hrepl hvf t

end Cert.KernelIdeal.Fused

end
-- ==== Proof.LibBitHalf.lean ====
/-
  A bit as a float against one half, on the extended reals. A one-bit word read unsigned (an i1 → f32 conversion) is the real 0
  or 1, and the f32 word 0x3F000000 is the real 1/2; so the ordered comparison "the bit's float is greater than one half" gives
  the bit back: `Ideal.cmp .ogt ((v.toNat : ℝ) : EReal) (Ideal.ofBits .f32 0x3F000000#32) = v` (`gt_half`). For a kernel that
  carries a boolean mask as 0.0 / 1.0 and tests it by `> 0.5` against a reference that selects on the boolean itself.
-/
import Idealize.ShloMosaic.PureOps.Ideal
import Idealize.ShloMosaic.PureOps.Ideal.Laws

noncomputable section

namespace LibBitHalf

open Idealize.ShloMosaic

/-- The f32 word 0x3F000000 denotes one half. -/
theorem half : Ideal.ofBits .f32 0x3F000000#32 = ((1 / 2 : ℝ) : EReal) := by
  simp [Ideal.ofBits, Ideal.ieee]
  rw [← EReal.coe_mul]
  norm_num

/-- A one-bit word is 0 or 1. -/
theorem bit_cases (v : BitVec 1) : v = 0#1 ∨ v = 1#1 := by
  revert v; decide

/-- Comparing the unsigned reading of a bit against one half gives the bit back. -/
theorem gt_half (v : BitVec 1) :
    Ideal.cmp .ogt (((v.toNat : ℝ)) : EReal) (Ideal.ofBits .f32 0x3F000000#32) = v := by
  rw [half]
  rcases bit_cases v with rfl | rfl
  · show BitVec.ofBool (decide ((((1 / 2 : ℝ)) : EReal) < (((0#1 : BitVec 1).toNat : ℝ) : EReal))) = 0#1
    have : ¬ ((((1 / 2 : ℝ)) : EReal) < (((0#1 : BitVec 1).toNat : ℝ) : EReal)) := by
      rw [EReal.coe_lt_coe_iff]; norm_num
    rw [decide_eq_false this]; rfl
  · show BitVec.ofBool (decide ((((1 / 2 : ℝ)) : EReal) < (((1#1 : BitVec 1).toNat : ℝ) : EReal))) = 1#1
    have : ((((1 / 2 : ℝ)) : EReal) < (((1#1 : BitVec 1).toNat : ℝ) : EReal)) := by
      rw [EReal.coe_lt_coe_iff]; norm_num
    rw [decide_eq_true this]; rfl

end LibBitHalf

end
-- ==== Proof.RefAgg.lean ====
/-
  The reference's two results in the shape of the kernel's. The reference selects with the validity BIT, broadcast over
  batch and lanes, between the transposed replacement rows and the product; the kernel selects by comparing the bit's float
  with one half. Both are `agg (b, n, f) = if valid n then repl (n, b, f) else xt (b, n, f)`. The reference's loss is the
  zero word plus the sum over every index of |agg − xt|, divided by the word 0x4B000000.
-/
import proofs.«102582_j85521388798293_2_alg».proof.Proof.ReferenceStages
import proofs.«102582_j85521388798293_2_alg».proof.Proof.Select
import proofs.«102582_j85521388798293_2_alg».proof.Proof.LibBitHalf

noncomputable section

namespace Cert.ReferenceIdeal.Agg

open Cert.ReferenceIdeal Cert.ReferenceIdeal.ReadP Idealize.ShloMosaic Idealize.ShloMosaic.ValueIdx

variable (x0 : (⟨S8x8192x128, .f32⟩ : BufTy).Contents (Elt Ideal)) (x1 : (⟨S2x65536, .i32⟩ : BufTy).Contents (Elt Ideal))
  (x2 : (⟨S128x128, .f32⟩ : BufTy).Contents (Elt Ideal))

/-- The reference's aggregated array is `agg` of its product, its replacement rows and any column whose entry at node `n` is
    the float of the reference's validity bit at `n`. -/
theorem result0_eq (xt : S8x8192x128.Idx → EReal) (repl : S8192x8x128.Idx → EReal) (vf : S8192x1.Idx → EReal)
    (hxt : xt = val_main_v0 (F := Ideal) x0 x2) (hrepl : repl = val_main_v48 (F := Ideal) x0 x1 x2)
    (hvf : ∀ n : Fin 8192, vf (ix2 n (0 : Fin 1)) = (((val_main_v40 (F := Ideal) x1 (ix1 n)).toNat : ℝ) : EReal)) :
    val_main_v51 (F := Ideal) x0 x1 x2 = Cert.KernelIdeal.Select.aggOf xt repl vf := by
  subst hxt hrepl
  funext j
  obtain ⟨b, n, f, rfl⟩ : ∃ (b : Fin 8) (n : Fin 8192) (f : Fin 128), j = ix3 b n f := ⟨j 0, j 1, j 2, eq_ix3 j⟩
  rw [val_main_v51_apply, val_main_call2_v0_apply, val_main_v50_apply, val_main_v49_apply, Cert.KernelIdeal.Select.aggOf_apply]
  unfold Cert.KernelIdeal.Select.aggAt
  rw [hvf n, LibBitHalf.gt_half]
  have e1 : idx_main_v50 (idx_main_call2_v0 (ix3 b n f)) = ix1 n := funext fun a => match a with | ⟨0, _⟩ => rfl
  have e2 : idx_main_v49 (ix3 b n f) = ix3 n b f :=
    funext fun a => match a with | ⟨0, _⟩ => rfl | ⟨1, _⟩ => rfl | ⟨2, _⟩ => rfl
  rw [e1, e2]

/-- The reference's loss is the sum over every index of |agg − xt|, divided by the word 0x4B000000. -/
theorem result1_eq (xt : S8x8192x128.Idx → EReal) (repl : S8192x8x128.Idx → EReal) (vf : S8192x1.Idx → EReal)
    (hxt : xt = val_main_v0 (F := Ideal) x0 x2) (hrepl : repl = val_main_v48 (F := Ideal) x0 x1 x2)
    (hvf : ∀ n : Fin 8192, vf (ix2 n (0 : Fin 1)) = (((val_main_v40 (F := Ideal) x1 (ix1 n)).toNat : ℝ) : EReal)) :
    val_main_v55 (F := Ideal) x0 x1 x2 ix0
      = Ideal.div (∑ j : S8x8192x128.Idx, Cert.KernelIdeal.Select.devAt xt repl vf
          ⟨(j 0).val, (j 0).isLt⟩ ⟨(j 1).val, (j 1).isLt⟩ ⟨(j 2).val, (j 2).isLt⟩) (Ideal.ofBits .f32 0x4B000000#32) := by
  rw [val_main_v55_apply, val_main_v54_apply, val_main_cst_15_apply, val_main_cst_14_apply]
  simp only [Ideal.hostDivf_def, Ideal.ofBits_def, Ideal.ofBits_zero_f32, zero_add]
  refine congrArg (Ideal.div · (Ideal.ofBits .f32 0x4B000000#32)) ?_
  refine Finset.sum_congr rfl fun j _ => ?_
  rw [val_main_v53_apply, val_main_v52_apply, result0_eq x0 x1 x2 xt repl vf hxt hrepl hvf]
  subst hxt
  unfold Cert.KernelIdeal.Select.devAt Cert.KernelIdeal.Select.aggOf
  dsimp only
  rw [show (ix3 (⟨(j 0).val, (j 0).isLt⟩ : Fin 8) (⟨(j 1).val, (j 1).isLt⟩ : Fin 8192) (⟨(j 2).val, (j 2).isLt⟩ : Fin 128)
      : S8x8192x128.Idx) = j from (eq_ix3 j).symm]
  rfl

end Cert.ReferenceIdeal.Agg

end
-- ==== Proof.ProdRef.lean ====
/-
  The first kernel's product is the reference's. Entry (b, n, o) of x·w is the sum over k of x (b, n, k) · w (k, o): the
  reference's contraction of the last axis of x with the first of w reads exactly these entries, and its transposed copy
  reads the same sum at (n, b, o).
-/
import proofs.«102582_j85521388798293_2_alg».proof.Proof.ReferenceStages
import proofs.«102582_j85521388798293_2_alg».proof.Proof.Product

noncomputable section

namespace Cert.ReferenceIdeal.Agg

open Cert.ReferenceIdeal Cert.ReferenceIdeal.ReadP Idealize.ShloMosaic Idealize.ShloMosaic.ValueIdx

variable (x0 : (⟨S8x8192x128, .f32⟩ : BufTy).Contents (Elt Ideal)) (x2 : (⟨S128x128, .f32⟩ : BufTy).Contents (Elt Ideal))

/-- The batch-major product is the reference's contraction. -/
theorem prodB_eq : Cert.KernelIdeal.Product.prodB x0 x2 = val_main_v0 (F := Ideal) x0 x2 := by
  funext i
  rw [val_main_v0_apply]
  unfold Cert.KernelIdeal.Product.prodB
  refine Finset.sum_congr rfl fun k _ => ?_
  have el : (ix3 (n0 := 8) (n1 := 8192) (i 0) (i 1) k : S8x8192x128.Idx) = lidx_main_v0 i k :=
    funext fun a => match a with | ⟨0, _⟩ => rfl | ⟨1, _⟩ => rfl | ⟨2, _⟩ => rfl
  have er : (ix2 (n1 := 128) k (i 2) : S128x128.Idx) = ridx_main_v0 i k :=
    funext fun a => match a with | ⟨0, _⟩ => rfl | ⟨1, _⟩ => rfl
  rw [el, er]

/-- The node-major product is the reference's contraction, transposed. -/
theorem prodN_eq : Cert.KernelIdeal.Product.prodN x0 x2 = val_main_v9 (F := Ideal) x0 x2 := by
  funext i
  rw [val_main_v9_apply, val_main_v0_apply]
  unfold Cert.KernelIdeal.Product.prodN
  refine Finset.sum_congr rfl fun k _ => ?_
  have el : (ix3 (n0 := 8) (n1 := 8192) (i 1) (i 0) k : S8x8192x128.Idx) = lidx_main_v0 (idx_main_v9 i) k :=
    funext fun a => match a with | ⟨0, _⟩ => rfl | ⟨1, _⟩ => rfl | ⟨2, _⟩ => rfl
  have er : (ix2 (n1 := 128) k (i 2) : S128x128.Idx) = ridx_main_v0 (idx_main_v9 i) k :=
    funext fun a => match a with | ⟨0, _⟩ => rfl | ⟨1, _⟩ => rfl
  rw [el, er]

end Cert.ReferenceIdeal.Agg

end
-- ==== Proof.Bridge.lean ====
/-
  The kernel's two results are the reference's, on the extended reals.

  The first kernel leaves the product x·w twice, batch-major and node-major: the reference's contraction and its transposed
  copy. The host operations between the two kernels are the reference's own, so what the second kernel is entered with is the
  reference's product, the reference's replacement rows (still node-major: the reference transposes them afterwards) and the
  float of the reference's validity bits as a column. The second kernel's [8, 8192, 128] output is then the selection
  `agg` of those three arrays, which is the reference's `where`, and its accumulator is the sum over every index of
  |agg − xt|, which after the division by the word 0x4B000000 is the reference's mean (the reference adds its sum to the zero
  word, the kernel starts its accumulator at it; the order and grouping of a finite sum do not matter).
-/
import proofs.«102582_j85521388798293_2_alg».proof.Proof.Stretch
import proofs.«102582_j85521388798293_2_alg».proof.Proof.Agree
import proofs.«102582_j85521388798293_2_alg».proof.Proof.Product
import proofs.«102582_j85521388798293_2_alg».proof.Proof.LossSum
import proofs.«102582_j85521388798293_2_alg».proof.Proof.RefAgg
import proofs.«102582_j85521388798293_2_alg».proof.Proof.ProdRef
import Idealize.ShloMosaic.Lib.Pipeline.Value

noncomputable section

namespace Cert.KernelIdeal.Bridge

open Cert.KernelIdeal Cert.KernelIdeal.Gen Idealize.ShloMosaic Idealize.ShloMosaic.TcCoe Idealize.SL.Sem
open Idealize.ShloMosaic.ValueIdx
open Cert.ReferenceIdeal.ReadP (val_main_v0 val_main_v9 val_main_v40 val_main_v48 val_main_v51 val_main_v55)

variable (m : (ℓ : Loc nD τ sig) → Buf (Elt Ideal) ℓ) (ρ : Dev nD → PrngReg)

/-- The second kernel's first operand is the reference's product. -/
theorem xt_eq (c : Dev nD) :
    (Gen.V6 m ρ c main_v0_0 : S8x8192x128.Idx → EReal)
      = val_main_v0 (F := Ideal) (m ((c.tc : Thread nD τ).loc main_arg0)) (m ((c.tc : Thread nD τ).loc main_arg2)) := by
  rw [Host.V6_main_v0_0 m ρ c, Product.batch_array (Gen.V0 m ρ) c]
  exact Cert.ReferenceIdeal.Agg.prodB_eq _ _

/-- Its second operand is the reference's replacement rows, node-major. -/
theorem repl_eq (c : Dev nD) :
    (Gen.V6 m ρ c main_v47 : S8192x8x128.Idx → EReal)
      = val_main_v48 (F := Ideal) (m ((c.tc : Thread nD τ).loc main_arg0)) (m ((c.tc : Thread nD τ).loc main_arg1))
          (m ((c.tc : Thread nD τ).loc main_arg2)) := by
  rw [Host.V6_main_v47 m ρ c, Product.node_array (Gen.V0 m ρ) c]
  refine Eq.trans ?_ (Host.replacedOf_eq (F := Ideal) (m ((c.tc : Thread nD τ).loc main_arg0))
    (m ((c.tc : Thread nD τ).loc main_arg1)) (m ((c.tc : Thread nD τ).loc main_arg2)))
  exact congrArg (fun a => Host.replacedOf (F := Ideal) a (m ((c.tc : Thread nD τ).loc main_arg1)))
    (Cert.ReferenceIdeal.Agg.prodN_eq (m ((c.tc : Thread nD τ).loc main_arg0)) (m ((c.tc : Thread nD τ).loc main_arg2)))

/-- Its third operand's entry at node `n` is the float of the reference's validity bit at `n`. -/
theorem valid_eq (c : Dev nD) (n : Fin 8192) :
    (Gen.V6 m ρ c main_v49 : S8192x1.Idx → EReal) (ix2 n (0 : Fin 1))
      = (((val_main_v40 (F := Ideal) (m ((c.tc : Thread nD τ).loc main_arg1)) (ix1 n)).toNat : ℝ) : EReal) := by
  rw [Host.V6_main_v49 m ρ c]
  refine (shapeCast_apply _ _ (ix2 n (0 : Fin 1)) (ix1 n) (by
    rw [Shape.rowMajor_val_one, Shape.rowMajor_val_two]
    show n.val = n.val * 1 + 0
    omega)).trans ?_
  rw [Host.validBits_eq]
  rfl

/-- The first result: the aggregated array. -/
theorem result0 (c : Dev nD) :
    Gen.W8 m ρ c (Proc.devRef .tc main_v50_0)
      = val_main_v51 (F := Ideal) (m ((c.tc : Thread nD τ).loc main_arg0)) (m ((c.tc : Thread nD τ).loc main_arg1))
          (m ((c.tc : Thread nD τ).loc main_arg2)) := by
  rw [Host.W8_main_v50_0 m ρ c, Fused.agg_array (Gen.V6 m ρ) c]
  exact (Cert.ReferenceIdeal.Agg.result0_eq _ _ _ _ _ _ (xt_eq m ρ c) (repl_eq m ρ c) (valid_eq m ρ c)).symm

/-- The second result: the mean of |agg − xt|. -/
theorem result1 (c : Dev nD) :
    Gen.W8 m ρ c (Proc.devRef .tc main_v52)
      = val_main_v55 (F := Ideal) (m ((c.tc : Thread nD τ).loc main_arg0)) (m ((c.tc : Thread nD τ).loc main_arg1))
          (m ((c.tc : Thread nD τ).loc main_arg2)) := by
  rw [Host.W8_main_v52 m ρ c]
  funext i
  obtain rfl := eq_ix0 i
  rw [Cert.ReferenceIdeal.Agg.result1_eq _ _ _ _ _ _ (xt_eq m ρ c) (repl_eq m ρ c) (valid_eq m ρ c)]
  show Ideal.div (shapeCast S_ ((Gen.dat1 (Gen.V6 m ρ) c).arrAt 4 cfg1.N) shapeCasts_S1x1_S_ ix0) (Ideal.ofBits .f32 0x4B000000#32) = _
  refine congrArg (Ideal.div · (Ideal.ofBits .f32 0x4B000000#32)) ?_
  have p1 : (S1x1.rowMajor (ix2 (0 : Fin 1) (0 : Fin 1))).val = 0 := by
    have h := (S1x1.rowMajor (ix2 (0 : Fin 1) (0 : Fin 1))).isLt
    have e : S1x1.numel = 1 := by decide
    omega
  have p0 : (S_.rowMajor ix0).val = 0 := by
    have h := (S_.rowMajor ix0).isLt
    have e : S_.numel = 1 := by decide
    omega
  refine (shapeCast_apply _ _ ix0 (ix2 (0 : Fin 1) (0 : Fin 1)) (p1.trans p0.symm)).trans ?_
  rw [Fused.final4 (Gen.V6 m ρ) c]
  exact Fused.total_eq (Gen.V6 m ρ) c _ _ _ rfl rfl rfl

end Cert.KernelIdeal.Bridge

end
-- ==== Proof.lean ====
/-
  The certificate's claims, assembled.

  The kernel computes x·w once and keeps it in two layouts, runs the reference's own host operations on the node-major copy,
  and fuses the final selection with the loss; the reference does the same work as one straight line of host operations. On
  the extended reals the two programs end with equal results: the selection `agg` (first result) and the sum of |agg − xt|
  over every entry divided by the word 0x4B000000 (second result). The three frames are the generated run of each program
  with the results forgotten; the idealization rewrote nothing.
-/
import proofs.«102582_j85521388798293_2_alg».proof.Defs
import proofs.«102582_j85521388798293_2_alg».proof.Proof.Gen.Kernel
import proofs.«102582_j85521388798293_2_alg».proof.Proof.Gen.Kernel.Skeleton
import proofs.«102582_j85521388798293_2_alg».proof.Proof.Gen.Kernel.Launch
import proofs.«102582_j85521388798293_2_alg».proof.Proof.Gen.Kernel.Points
import proofs.«102582_j85521388798293_2_alg».proof.Proof.Gen.Kernel.Frame
import proofs.«102582_j85521388798293_2_alg».proof.Proof.Gen.KernelIdeal
import proofs.«102582_j85521388798293_2_alg».proof.Proof.Gen.KernelIdeal.Skeleton
import proofs.«102582_j85521388798293_2_alg».proof.Proof.Gen.KernelIdeal.Launch
import proofs.«102582_j85521388798293_2_alg».proof.Proof.Gen.KernelIdeal.Points
import proofs.«102582_j85521388798293_2_alg».proof.Proof.Gen.KernelIdeal.Frame
import proofs.«102582_j85521388798293_2_alg».proof.Proof.Gen.ReferenceIdeal
import proofs.«102582_j85521388798293_2_alg».proof.Proof.Gen.Pre_finite_inputs
import proofs.«102582_j85521388798293_2_alg».proof.Proof.KernelRun
import proofs.«102582_j85521388798293_2_alg».proof.Proof.ReferenceRunStages
import proofs.«102582_j85521388798293_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results forgotten. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- The idealization rewrote no operation. -/
theorem preserves : Cert.preserves_Kernel_KernelIdeal := trivial

/-- From memories that agree on the three arguments both idealized programs run, and each of the kernel's two result buffers
    ends at what the reference's ends at: the reference's stages of the arguments, which the kernel's last boundary contents
    equal (`Bridge.result0`, `Bridge.result1`). -/
theorem algebraic : Cert.algebraic_KernelIdeal_ReferenceIdeal := by
  intro m ρ m' ρ' _ hagree
  refine ⟨fun c => Cert.KernelIdeal.Gen.W8 m ρ c (Proc.devRef .tc Cert.KernelIdeal.main_v50_0),
    fun c => Cert.KernelIdeal.Gen.W8 m ρ c (Proc.devRef .tc Cert.KernelIdeal.main_v52),
    Cert.KernelIdeal.Host.run_values m ρ, ?_⟩
  refine (θ_run Cert.ReferenceIdeal.defs _ _).mono (fun _ h c => ?_) (Cert.ReferenceIdeal.Stages.run (F := Ideal) m' ρ')
  obtain ⟨h0, h1, ha⟩ := h c
  refine ⟨h0.trans ?_, h1.trans ?_, ha⟩
  · rw [(hagree c).1, (hagree c).2.1, (hagree c).2.2]
    exact (Cert.KernelIdeal.Bridge.result0 m ρ c).symm
  · rw [(hagree c).1, (hagree c).2.1, (hagree c).2.2]
    exact (Cert.KernelIdeal.Bridge.result1 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
